-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v13)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v13) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v11) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x4096x1024 : Shape := ⟨3, ![4, 4096, 1024]⟩
abbrev S3072x1024 : Shape := ⟨2, ![3072, 1024]⟩
abbrev S3072 : Shape := ⟨1, ![3072]⟩
abbrev S16x1024 : Shape := ⟨2, ![16, 1024]⟩
abbrev S1024x16 : Shape := ⟨2, ![1024, 16]⟩
abbrev S_ : Shape := ⟨0, ![]⟩

class Facts : Prop where
  bcast_S_S4x4096x1024 : S_.BroadcastsInDim S4x4096x1024 (![] : Fin 0 → Fin S4x4096x1024.rank)
  reducesTo_S4x4096x1024_S_d0_1_2 : S4x4096x1024.ReducesTo [0, 1, 2] S_
  h_S_ : 0 < S_.numel
  bcast_S_S3072x1024 : S_.BroadcastsInDim S3072x1024 (![] : Fin 0 → Fin S3072x1024.rank)
  reducesTo_S3072x1024_S_d0_1 : S3072x1024.ReducesTo [0, 1] S_
  bcast_S_S3072 : S_.BroadcastsInDim S3072 (![] : Fin 0 → Fin S3072.rank)
  reducesTo_S3072_S_d0 : S3072.ReducesTo [0] S_
  bcast_S_S16x1024 : S_.BroadcastsInDim S16x1024 (![] : Fin 0 → Fin S16x1024.rank)
  reducesTo_S16x1024_S_d0_1 : S16x1024.ReducesTo [0, 1] S_
  bcast_S_S1024x16 : S_.BroadcastsInDim S1024x16 (![] : Fin 0 → Fin S1024x16.rank)
  reducesTo_S1024x16_S_d0_1 : S1024x16.ReducesTo [0, 1] S_

variable [Facts]

def fn_part1 {F : FTy → Type} [FloatOps F] (main_arg4 : FVec F S1024x16 .f32) (main_arg5 : FVec F S16x1024 .f32) (main_arg6 : FVec F S1024x16 .f32) (main_v13 : IVec S_ 1) (main_v16 : IVec S16x1024 1) : IVec S_ 1 :=
  let main_c_5 : IVec S_ 1 := constantI S_ 1 1#1
  let main_v17 : IVec S_ 1 := (fun x v => Host.reduce IntOp.andi x v reducesTo_S16x1024_S_d0_1 h_S_) main_v16 main_c_5
  let main_v18 : IVec S_ 1 := andi main_v13 main_v17
  let main_v19 : FVec F S1024x16 .f32 := Host.absf main_arg4
  let main_cst_6 : FVec F S_ .f32 := constant S_ .f32 0x7F800000#32
  let main_v20 : FVec F S1024x16 .f32 := broadcastInDim S1024x16 ![] bcast_S_S1024x16 main_cst_6
  let main_v21 : IVec S1024x16 1 := cmpf .olt main_v19 main_v20
  let main_c_7 : IVec S_ 1 := constantI S_ 1 1#1
  let main_v22 : IVec S_ 1 := (fun x v => Host.reduce IntOp.andi x v reducesTo_S1024x16_S_d0_1 h_S_) main_v21 main_c_7
  let main_v23 : IVec S_ 1 := andi main_v18 main_v22
  let main_v24 : FVec F S16x1024 .f32 := Host.absf main_arg5
  let main_cst_8 : FVec F S_ .f32 := constant S_ .f32 0x7F800000#32
  let main_v25 : FVec F S16x1024 .f32 := broadcastInDim S16x1024 ![] bcast_S_S16x1024 main_cst_8
  let main_v26 : IVec S16x1024 1 := cmpf .olt main_v24 main_v25
  let main_c_9 : IVec S_ 1 := constantI S_ 1 1#1
  let main_v27 : IVec S_ 1 := (fun x v => Host.reduce IntOp.andi x v reducesTo_S16x1024_S_d0_1 h_S_) main_v26 main_c_9
  let main_v28 : IVec S_ 1 := andi main_v23 main_v27
  let main_v29 : FVec F S1024x16 .f32 := Host.absf main_arg6
  let main_cst_10 : FVec F S_ .f32 := constant S_ .f32 0x7F800000#32
  let main_v30 : FVec F S1024x16 .f32 := broadcastInDim S1024x16 ![] bcast_S_S1024x16 main_cst_10
  let main_v31 : IVec S1024x16 1 := cmpf .olt main_v29 main_v30
  let main_c_11 : IVec S_ 1 := constantI S_ 1 1#1
  let main_v32 : IVec S_ 1 := (fun x v => Host.reduce IntOp.andi x v reducesTo_S1024x16_S_d0_1 h_S_) main_v31 main_c_11
  let main_v33 : IVec S_ 1 := andi main_v28 main_v32
  main_v33

def fn {F : FTy → Type} [FloatOps F] (main_arg0 : FVec F S4x4096x1024 .f32) (main_arg1 : FVec F S3072x1024 .f32) (main_arg2 : FVec F S3072 .f32) (main_arg3 : FVec F S16x1024 .f32) (main_arg4 : FVec F S1024x16 .f32) (main_arg5 : FVec F S16x1024 .f32) (main_arg6 : FVec F S1024x16 .f32) : IVec S_ 1 :=
  let main_v0 : FVec F S4x4096x1024 .f32 := Host.absf main_arg0
  let main_cst : FVec F S_ .f32 := constant S_ .f32 0x7F800000#32
  let main_v1 : FVec F S4x4096x1024 .f32 := broadcastInDim S4x4096x1024 ![] bcast_S_S4x4096x1024 main_cst
  let main_v2 : IVec S4x4096x1024 1 := cmpf .olt main_v0 main_v1
  let main_c : IVec S_ 1 := constantI S_ 1 1#1
  let main_v3 : IVec S_ 1 := (fun x v => Host.reduce IntOp.andi x v reducesTo_S4x4096x1024_S_d0_1_2 h_S_) main_v2 main_c
  let main_v4 : FVec F S3072x1024 .f32 := Host.absf main_arg1
  let main_cst_0 : FVec F S_ .f32 := constant S_ .f32 0x7F800000#32
  let main_v5 : FVec F S3072x1024 .f32 := broadcastInDim S3072x1024 ![] bcast_S_S3072x1024 main_cst_0
  let main_v6 : IVec S3072x1024 1 := cmpf .olt main_v4 main_v5
  let main_c_1 : IVec S_ 1 := constantI S_ 1 1#1
  let main_v7 : IVec S_ 1 := (fun x v => Host.reduce IntOp.andi x v reducesTo_S3072x1024_S_d0_1 h_S_) main_v6 main_c_1
  let main_v8 : IVec S_ 1 := andi main_v3 main_v7
  let main_v9 : FVec F S3072 .f32 := Host.absf main_arg2
  let main_cst_2 : FVec F S_ .f32 := constant S_ .f32 0x7F800000#32
  let main_v10 : FVec F S3072 .f32 := broadcastInDim S3072 ![] bcast_S_S3072 main_cst_2
  let main_v11 : IVec S3072 1 := cmpf .olt main_v9 main_v10
  let main_c_3 : IVec S_ 1 := constantI S_ 1 1#1
  let main_v12 : IVec S_ 1 := (fun x v => Host.reduce IntOp.andi x v reducesTo_S3072_S_d0 h_S_) main_v11 main_c_3
  let main_v13 : IVec S_ 1 := andi main_v8 main_v12
  let main_v14 : FVec F S16x1024 .f32 := Host.absf main_arg3
  let main_cst_4 : FVec F S_ .f32 := constant S_ .f32 0x7F800000#32
  let main_v15 : FVec F S16x1024 .f32 := broadcastInDim S16x1024 ![] bcast_S_S16x1024 main_cst_4
  let main_v16 : IVec S16x1024 1 := cmpf .olt main_v14 main_v15
  fn_part1 (F := F) main_arg4 main_arg5 main_arg6 main_v13 main_v16
-- ==== Kernel.lean ====
abbrev S4x4096x1024 : Shape := ⟨3, ![4, 4096, 1024]⟩
abbrev S3072x1024 : Shape := ⟨2, ![3072, 1024]⟩
abbrev S3072 : Shape := ⟨1, ![3072]⟩
abbrev S16x1024 : Shape := ⟨2, ![16, 1024]⟩
abbrev S1024x16 : Shape := ⟨2, ![1024, 16]⟩
abbrev S16384x1024 : Shape := ⟨2, ![16384, 1024]⟩
abbrev S1024x3072 : Shape := ⟨2, ![1024, 3072]⟩
abbrev S1024x1024 : Shape := ⟨2, ![1024, 1024]⟩
abbrev S_ : Shape := ⟨0, ![]⟩
abbrev S1 : Shape := ⟨1, ![1]⟩
abbrev S1x3072 : Shape := ⟨2, ![1, 3072]⟩
abbrev S16384x3072 : Shape := ⟨2, ![16384, 3072]⟩
abbrev S512x1024 : Shape := ⟨2, ![512, 1024]⟩
abbrev S512x3072 : Shape := ⟨2, ![512, 3072]⟩
abbrev S4x4096x3072 : Shape := ⟨3, ![4, 4096, 3072]⟩

abbrev nBuf : Space → Nat
  | .hbm => 23
  | .vmem => 6
  | .smem => 0
  | _ => 0

abbrev bufTy : (tb : Table) → Fin (tcTables nBuf tb) → BufTy
  | .hbm, ⟨0, _⟩ => ⟨S4x4096x1024, .f32⟩
  | .hbm, ⟨1, _⟩ => ⟨S3072x1024, .f32⟩
  | .hbm, ⟨2, _⟩ => ⟨S3072, .f32⟩
  | .hbm, ⟨3, _⟩ => ⟨S16x1024, .f32⟩
  | .hbm, ⟨4, _⟩ => ⟨S1024x16, .f32⟩
  | .hbm, ⟨5, _⟩ => ⟨S16x1024, .f32⟩
  | .hbm, ⟨6, _⟩ => ⟨S1024x16, .f32⟩
  | .hbm, ⟨7, _⟩ => ⟨S16384x1024, .f32⟩
  | .hbm, ⟨8, _⟩ => ⟨S1024x3072, .f32⟩
  | .hbm, ⟨9, _⟩ => ⟨S1024x1024, .f32⟩
  | .hbm, ⟨10, _⟩ => ⟨S1024x1024, .f32⟩
  | .hbm, ⟨11, _⟩ => ⟨S1024x1024, .f32⟩
  | .hbm, ⟨12, _⟩ => ⟨S1024x1024, .f32⟩
  | .hbm, ⟨13, _⟩ => ⟨S_, .i32⟩
  | .hbm, ⟨14, _⟩ => ⟨S1, .i32⟩
  | .hbm, ⟨15, _⟩ => ⟨S1024x3072, .f32⟩
  | .hbm, ⟨16, _⟩ => ⟨S_, .i32⟩
  | .hbm, ⟨17, _⟩ => ⟨S1, .i32⟩
  | .hbm, ⟨18, _⟩ => ⟨S1024x3072, .f32⟩
  | .hbm, ⟨19, _⟩ => ⟨S1024x3072, .bf16⟩
  | .hbm, ⟨20, _⟩ => ⟨S1x3072, .f32⟩
  | .hbm, ⟨21, _⟩ => ⟨S16384x3072, .f32⟩
  | .hbm, ⟨22, _⟩ => ⟨S4x4096x3072, .f32⟩
  | .local _ .vmem, ⟨0, _⟩ => ⟨S512x1024, .f32⟩
  | .local _ .vmem, ⟨1, _⟩ => ⟨S512x1024, .f32⟩
  | .local _ .vmem, ⟨2, _⟩ => ⟨S1024x3072, .bf16⟩
  | .local _ .vmem, ⟨3, _⟩ => ⟨S1x3072, .f32⟩
  | .local _ .vmem, ⟨4, _⟩ => ⟨S512x3072, .f32⟩
  | .local _ .vmem, ⟨5, _⟩ => ⟨S512x3072, .f32⟩
  | _, _ => ⟨S4x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_c : Ref sig .tc := ⟨.hbm, 13, rfl⟩
abbrev main_v6 : Ref sig .tc := ⟨.hbm, 14, rfl⟩
abbrev main_v7 : Ref sig .tc := ⟨.hbm, 15, rfl⟩
abbrev main_c_0 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x3072 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x3072 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x3072 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  shapeCasts_S4x4096x1024_S16384x1024 : S4x4096x1024.ShapeCasts S16384x1024
  transposes_S3072x1024_S1024x3072_1_0 : S3072x1024.Transposes [1, 0] S1024x3072
  transposes_S1024x1024_S1024x1024_1_0 : S1024x1024.Transposes [1, 0] S1024x1024
  bcast_S_S1 : S_.BroadcastsInDim S1 (![] : Fin 0 → Fin S1.rank)
  bitsLt_bf16_f32 : FTy.bits .bf16 < FTy.bits .f32
  shapeCasts_S3072_S1x3072 : S3072.ShapeCasts S1x3072
  inb_S512x1024_S512x1024_0_0 : ∀ a, (![0, 0] : Fin 2 → Nat) a + S512x1024.size a ≤ S512x1024.size a
  h_S512x1024 : 0 < S512x1024.numel
  shapeCasts_S512x1024_S512x1024 : S512x1024.ShapeCasts S512x1024
  inb_S1024x3072_S1024x3072_0_0 : ∀ a, (![0, 0] : Fin 2 → Nat) a + S1024x3072.size a ≤ S1024x3072.size a
  h_S1024x3072 : 0 < S1024x3072.numel
  shapeCasts_S1024x3072_S1024x3072 : S1024x3072.ShapeCasts S1024x3072
  inb_S1x3072_S1x3072_0_0 : ∀ a, (![0, 0] : Fin 2 → Nat) a + S1x3072.size a ≤ S1x3072.size a
  h_S1x3072 : 0 < S1x3072.numel
  shapeCasts_S1x3072_S1x3072 : S1x3072.ShapeCasts S1x3072
  broadcasts_S1x3072_S512x3072 : S1x3072.Broadcasts S512x3072
  inb_S512x3072_S512x3072_0_0 : ∀ a, (![0, 0] : Fin 2 → Nat) a + S512x3072.size a ≤ S512x3072.size a
  h_S512x3072 : 0 < S512x3072.numel
  shapeCasts_S16384x3072_S4x4096x3072 : S16384x3072.ShapeCasts S4x4096x3072
  dot_S1024x16_S16x1024_S1024x1024_1_0_0_1_n_n_wf : DotDims.WF S1024x16 S16x1024 S1024x1024 [1] [0] [0] [1] [] []
  scatter_S1024x3072_S1_S1024x1024_01_n_1_0_wf : ScatterDims.WF S1024x3072 S1 S1024x1024 [0, 1] [] [1] 0
  dot_S512x1024_S1024x3072_S512x3072_1_0_0_1_n_n_wf : DotDims.WF S512x1024 S1024x3072 S512x3072 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x1024.size a ≤ S16384x1024.size a
  hwx0_0 : ∀ i : grid0.Coords, EltTy.bits .f32 = 32 ∨ (Rect.block (s := S16384x1024) S512x1024.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1024x3072.size a ≤ S1024x3072.size a
  hwx0_1 : ∀ i : grid0.Coords, EltTy.bits .bf16 = 32 ∨ (Rect.block (s := S1024x3072) S1024x3072.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x3072.size a ≤ S1x3072.size a
  hwx0_2 : ∀ i : grid0.Coords, EltTy.bits .f32 = 32 ∨ (Rect.block (s := S1x3072) S1x3072.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S512x3072.size a ≤ S16384x3072.size a
  hwx0_3 : ∀ i : grid0.Coords, EltTy.bits .f32 = 32 ∨ (Rect.block (s := S16384x3072) S512x3072.size (cc0_transform_3 i) (hinb0_3 i)).WholeWords (EltTy.packing .f32)

variable [Facts₀]

def dot_S1024x16_S16x1024_S1024x1024_1_0_0_1_n_n : DotDims S1024x16 S16x1024 S1024x1024 where
  lhsContracting := [1]
  rhsContracting := [0]
  lhsNonContracting := [0]
  rhsNonContracting := [1]
  lhsBatch := []
  rhsBatch := []
  wf := dot_S1024x16_S16x1024_S1024x1024_1_0_0_1_n_n_wf
def scatter_S1024x3072_S1_S1024x1024_01_n_1_0 : ScatterDims S1024x3072 S1 S1024x1024 where
  updateWindowDims := [0, 1]
  insertedWindowDims := []
  scatterDimsToOperandDims := [1]
  indexVectorDim := 0
  wf := scatter_S1024x3072_S1_S1024x1024_01_n_1_0_wf
def dot_S512x1024_S1024x3072_S512x3072_1_0_0_1_n_n : DotDims S512x1024 S1024x3072 S512x3072 where
  lhsContracting := [1]
  rhsContracting := [0]
  lhsNonContracting := [0]
  rhsNonContracting := [1]
  lhsBatch := []
  rhsBatch := []
  wf := dot_S512x1024_S1024x3072_S512x3072_1_0_0_1_n_n_wf

abbrev win0_0 : Pipeline.Window sig grid0 :=
  Pipeline.Window.ofSpec (Memref.whole main_v0) S512x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v10) S1024x3072.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v11) S1x3072.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v12) S512x3072.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S4x4096x1024 : Shape := ⟨3, ![4, 4096, 1024]⟩
abbrev S3072x1024 : Shape := ⟨2, ![3072, 1024]⟩
abbrev S3072 : Shape := ⟨1, ![3072]⟩
abbrev S16x1024 : Shape := ⟨2, ![16, 1024]⟩
abbrev S1024x16 : Shape := ⟨2, ![1024, 16]⟩
abbrev S4x4096x3072 : Shape := ⟨3, ![4, 4096, 3072]⟩
abbrev S1x1x3072 : Shape := ⟨3, ![1, 1, 3072]⟩
abbrev S4x4096x16 : Shape := ⟨3, ![4, 4096, 16]⟩
abbrev S_ : Shape := ⟨0, ![]⟩
abbrev S1 : Shape := ⟨1, ![1]⟩

abbrev nBuf : Space → Nat
  | .hbm => 21
  | .vmem => 0
  | .smem => 0
  | _ => 0

abbrev bufTy : (tb : Table) → Fin (tcTables nBuf tb) → BufTy
  | .hbm, ⟨0, _⟩ => ⟨S4x4096x1024, .f32⟩
  | .hbm, ⟨1, _⟩ => ⟨S3072x1024, .f32⟩
  | .hbm, ⟨2, _⟩ => ⟨S3072, .f32⟩
  | .hbm, ⟨3, _⟩ => ⟨S16x1024, .f32⟩
  | .hbm, ⟨4, _⟩ => ⟨S1024x16, .f32⟩
  | .hbm, ⟨5, _⟩ => ⟨S16x1024, .f32⟩
  | .hbm, ⟨6, _⟩ => ⟨S1024x16, .f32⟩
  | .hbm, ⟨7, _⟩ => ⟨S4x4096x3072, .f32⟩
  | .hbm, ⟨8, _⟩ => ⟨S1x1x3072, .f32⟩
  | .hbm, ⟨9, _⟩ => ⟨S4x4096x3072, .f32⟩
  | .hbm, ⟨10, _⟩ => ⟨S4x4096x3072, .f32⟩
  | .hbm, ⟨11, _⟩ => ⟨S4x4096x16, .f32⟩
  | .hbm, ⟨12, _⟩ => ⟨S4x4096x1024, .f32⟩
  | .hbm, ⟨13, _⟩ => ⟨S4x4096x16, .f32⟩
  | .hbm, ⟨14, _⟩ => ⟨S4x4096x1024, .f32⟩
  | .hbm, ⟨15, _⟩ => ⟨S_, .i32⟩
  | .hbm, ⟨16, _⟩ => ⟨S1, .i32⟩
  | .hbm, ⟨17, _⟩ => ⟨S4x4096x3072, .f32⟩
  | .hbm, ⟨18, _⟩ => ⟨S_, .i32⟩
  | .hbm, ⟨19, _⟩ => ⟨S1, .i32⟩
  | .hbm, ⟨20, _⟩ => ⟨S4x4096x3072, .f32⟩
  | _, _ => ⟨S4x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_c : Ref sig .tc := ⟨.hbm, 15, rfl⟩
abbrev main_v8 : Ref sig .tc := ⟨.hbm, 16, rfl⟩
abbrev main_v9 : Ref sig .tc := ⟨.hbm, 17, rfl⟩
abbrev main_c_0 : Ref sig .tc := ⟨.hbm, 18, rfl⟩
abbrev main_v10 : Ref sig .tc := ⟨.hbm, 19, rfl⟩
abbrev main_v11 : Ref sig .tc := ⟨.hbm, 20, rfl⟩

abbrev nD : Nat := 1
abbrev τ : Topo := Topo.v7x

variable {F : FTy → Type} [FloatOps F]

class Facts₀ : Prop where
  bcast_S3072_S1x1x3072_2 : S3072.BroadcastsInDim S1x1x3072 (![2] : Fin 1 → Fin S1x1x3072.rank)
  bcast_S1x1x3072_S4x4096x3072_0_1_2 : S1x1x3072.BroadcastsInDim S4x4096x3072 (![0, 1, 2] : Fin 3 → Fin S4x4096x3072.rank)
  bcast_S_S1 : S_.BroadcastsInDim S1 (![] : Fin 0 → Fin S1.rank)
  dot_S4x4096x1024_S3072x1024_S4x4096x3072_2_1_01_0_n_n_wf : DotDims.WF S4x4096x1024 S3072x1024 S4x4096x3072 [2] [1] [0, 1] [0] [] []
  dot_S4x4096x1024_S16x1024_S4x4096x16_2_1_01_0_n_n_wf : DotDims.WF S4x4096x1024 S16x1024 S4x4096x16 [2] [1] [0, 1] [0] [] []
  dot_S4x4096x16_S1024x16_S4x4096x1024_2_1_01_0_n_n_wf : DotDims.WF S4x4096x16 S1024x16 S4x4096x1024 [2] [1] [0, 1] [0] [] []
  scatter_S4x4096x3072_S1_S4x4096x1024_012_n_2_0_wf : ScatterDims.WF S4x4096x3072 S1 S4x4096x1024 [0, 1, 2] [] [2] 0

variable [Facts₀]

def dot_S4x4096x1024_S3072x1024_S4x4096x3072_2_1_01_0_n_n : DotDims S4x4096x1024 S3072x1024 S4x4096x3072 where
  lhsContracting := [2]
  rhsContracting := [1]
  lhsNonContracting := [0, 1]
  rhsNonContracting := [0]
  lhsBatch := []
  rhsBatch := []
  wf := dot_S4x4096x1024_S3072x1024_S4x4096x3072_2_1_01_0_n_n_wf
def dot_S4x4096x1024_S16x1024_S4x4096x16_2_1_01_0_n_n : DotDims S4x4096x1024 S16x1024 S4x4096x16 where
  lhsContracting := [2]
  rhsContracting := [1]
  lhsNonContracting := [0, 1]
  rhsNonContracting := [0]
  lhsBatch := []
  rhsBatch := []
  wf := dot_S4x4096x1024_S16x1024_S4x4096x16_2_1_01_0_n_n_wf
def dot_S4x4096x16_S1024x16_S4x4096x1024_2_1_01_0_n_n : DotDims S4x4096x16 S1024x16 S4x4096x1024 where
  lhsContracting := [2]
  rhsContracting := [1]
  lhsNonContracting := [0, 1]
  rhsNonContracting := [0]
  lhsBatch := []
  rhsBatch := []
  wf := dot_S4x4096x16_S1024x16_S4x4096x1024_2_1_01_0_n_n_wf
def scatter_S4x4096x3072_S1_S4x4096x1024_012_n_2_0 : ScatterDims S4x4096x3072 S1 S4x4096x1024 where
  updateWindowDims := [0, 1, 2]
  insertedWindowDims := []
  scatterDimsToOperandDims := [2]
  indexVectorDim := 0
  wf := scatter_S4x4096x3072_S1_S4x4096x1024_012_n_2_0_wf

class Facts : Prop extends Facts₀ where

variable [Facts]
-- ==== Proof.QkvLora.lean ====
/-
  The specification: a fused query/key/value projection with two low-rank corrections.

  For a token row `x[b,s,·]` of width 1024 and an output column `e < 3072`,
    base(b,s,e)  = (Σ_d x[b,s,d] · W[e,d]) + β[e],
    low(A,B)(b,s,e') = Σ_r (Σ_d x[b,s,d] · A[r,d]) · B[e',r]      (rank 16),
  and the result is base + low(Aq,Bq) on the first 1024 columns (the queries), base alone on the middle 1024 columns (the
  keys), and base + low(Av,Bv) at column e − 2048 on the last 1024 columns (the values).

  One side computes it exactly so. The other first FOLDS each correction into the weight matrix, W'[e,d] = W[e,d] +
  Σ_r B[e,r] · A[r,d], and takes one product with W'. The two agree by distributivity and by exchanging the two finite sums
  over d and r — laws of the real numbers that fail on the extended reals at infinities (∞ · (1 + (−1)) against ∞ − ∞), so
  they are stated for entries that are real numbers.
-/
import Idealize.ShloMosaic.PureOps.Ideal
import Idealize.ShloMosaic.Lib.ValueIdx

noncomputable section

namespace Cert.QkvLora

open Idealize.ShloMosaic Idealize.ShloMosaic.ValueIdx

/-! ## Real sums inside the extended reals -/

/-- The inclusion of the reals in the extended reals commutes with finite sums. -/
theorem coe_sum {ι : Type} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- A family of extended reals every member of which is real is the image of a real family. -/
theorem exists_real_family {ι : Type} (x : ι → EReal) (h : ∀ i, ∃ r : ℝ, x i = (r : EReal)) :
    ∃ x' : ι → ℝ, x = fun i => (x' i : EReal) :=
  ⟨fun i => (h i).choose, funext fun i => (h i).choose_spec⟩

/-- FOLDING A LOW-RANK CORRECTION INTO THE WEIGHTS. For real entries: the product of a row `x` with the corrected column
    `w + Σ_r b_r · a_r`, plus the bias, is the product with `w` plus the bias, plus the correction applied to the row first
    (`Σ_r (x · a_r) · b_r`). -/
theorem fold_low_rank {D R : Type} [Fintype D] [Fintype R] (x w : D → EReal) (a : R → D → EReal) (b : R → EReal) (β : EReal)
    (hx : ∀ d, ∃ t : ℝ, x d = (t : EReal)) (hw : ∀ d, ∃ t : ℝ, w d = (t : EReal))
    (ha : ∀ r d, ∃ t : ℝ, a r d = (t : EReal)) (hb : ∀ r, ∃ t : ℝ, b r = (t : EReal)) (hβ : ∃ t : ℝ, β = (t : EReal)) :
    (∑ d, x d * (w d + ∑ r, b r * a r d)) + β = ((∑ d, x d * w d) + β) + ∑ r, (∑ d, x d * a r d) * b r := by
  obtain ⟨x', rfl⟩ := exists_real_family x hx
  obtain ⟨w', rfl⟩ := exists_real_family w hw
  obtain ⟨b', rfl⟩ := exists_real_family b hb
  obtain ⟨β', rfl⟩ := hβ
  obtain ⟨a', rfl⟩ : ∃ a' : R → D → ℝ, a = fun r d => (a' r d : EReal) :=
    ⟨fun r d => (ha r d).choose, funext fun r => funext fun d => (ha r d).choose_spec⟩
  simp only [← EReal.coe_mul, ← coe_sum, ← EReal.coe_add]
  congr 1
  have key : ∑ d, x' d * ∑ r, b' r * a' r d = ∑ r, (∑ d, x' d * a' r d) * b' r := by
    simp only [Finset.mul_sum, Finset.sum_mul]
    rw [Finset.sum_comm]
    exact Finset.sum_congr rfl fun r _ => Finset.sum_congr rfl fun d _ => by ring
  simp only [mul_add, Finset.sum_add_distrib]
  rw [key]
  ring

/-! ## The result, index by index -/

/-- The plain projection of token `(b, s)` onto output column `e`, with its bias. -/
def base (x : (⟨3, ![4, 4096, 1024]⟩ : Shape).Idx → EReal) (W : (⟨2, ![3072, 1024]⟩ : Shape).Idx → EReal)
    (β : (⟨1, ![3072]⟩ : Shape).Idx → EReal) (b : Fin 4) (s : Fin 4096) (e : Fin 3072) : EReal :=
  (∑ d : Fin 1024, x (ix3 b s d) * W (ix2 e d)) + β (ix1 e)

/-- The rank-16 correction of token `(b, s)` at column `e'` of a 1024-wide slice: down through `A`, up through `B`. -/
def low (x : (⟨3, ![4, 4096, 1024]⟩ : Shape).Idx → EReal) (A : (⟨2, ![16, 1024]⟩ : Shape).Idx → EReal)
    (B : (⟨2, ![1024, 16]⟩ : Shape).Idx → EReal) (b : Fin 4) (s : Fin 4096) (e' : Fin 1024) : EReal :=
  ∑ r : Fin 16, (∑ d : Fin 1024, x (ix3 b s d) * A (ix2 r d)) * B (ix2 e' r)

/-- The result at token `(b, s)` and column `e`: queries corrected by `(Aq, Bq)`, keys plain, values corrected by `(Av, Bv)`. -/
def out (x : (⟨3, ![4, 4096, 1024]⟩ : Shape).Idx → EReal) (W : (⟨2, ![3072, 1024]⟩ : Shape).Idx → EReal)
    (β : (⟨1, ![3072]⟩ : Shape).Idx → EReal) (Aq : (⟨2, ![16, 1024]⟩ : Shape).Idx → EReal) (Bq : (⟨2, ![1024, 16]⟩ : Shape).Idx → EReal)
    (Av : (⟨2, ![16, 1024]⟩ : Shape).Idx → EReal) (Bv : (⟨2, ![1024, 16]⟩ : Shape).Idx → EReal)
    (b : Fin 4) (s : Fin 4096) (e : Fin 3072) : EReal :=
  if h : e.val < 1024 then base x W β b s e + low x Aq Bq b s ⟨e.val, h⟩
  else if h2 : 2048 ≤ e.val then base x W β b s e + low x Av Bv b s ⟨e.val - 2048, by have := e.isLt; omega⟩
  else base x W β b s e

/-- The whole result array, `[4, 4096, 3072]`. -/
def G (x : (⟨3, ![4, 4096, 1024]⟩ : Shape).Idx → EReal) (W : (⟨2, ![3072, 1024]⟩ : Shape).Idx → EReal)
    (β : (⟨1, ![3072]⟩ : Shape).Idx → EReal) (Aq : (⟨2, ![16, 1024]⟩ : Shape).Idx → EReal) (Bq : (⟨2, ![1024, 16]⟩ : Shape).Idx → EReal)
    (Av : (⟨2, ![16, 1024]⟩ : Shape).Idx → EReal) (Bv : (⟨2, ![1024, 16]⟩ : Shape).Idx → EReal) :
    (⟨3, ![4, 4096, 3072]⟩ : Shape).Idx → EReal :=
  fun i => out x W β Aq Bq Av Bv (i 0) (i 1) (i 2)

/-- The same with the tokens flattened, `[16384, 3072]`: row `m` is token `(m / 4096, m % 4096)`. -/
def Gflat (x : (⟨3, ![4, 4096, 1024]⟩ : Shape).Idx → EReal) (W : (⟨2, ![3072, 1024]⟩ : Shape).Idx → EReal)
    (β : (⟨1, ![3072]⟩ : Shape).Idx → EReal) (Aq : (⟨2, ![16, 1024]⟩ : Shape).Idx → EReal) (Bq : (⟨2, ![1024, 16]⟩ : Shape).Idx → EReal)
    (Av : (⟨2, ![16, 1024]⟩ : Shape).Idx → EReal) (Bv : (⟨2, ![1024, 16]⟩ : Shape).Idx → EReal) :
    (⟨2, ![16384, 3072]⟩ : Shape).Idx → EReal :=
  fun j => out x W β Aq Bq Av Bv ⟨(j 0).val / 4096, by have h : (j 0).val < 16384 := (j 0).isLt; omega⟩ ⟨(j 0).val % 4096, Nat.mod_lt _ (by decide)⟩ (j 1)

end Cert.QkvLora

end
-- ==== Proof.LibScatterAt.lean ====
/-
  A scatter read at one index.

  `Host.scatter` is a left fold over the update's indices in row-major order; the step for update index `j` replaces the
  entry at the index `j` lands on (if it lands inside the operand) by the combiner of that entry and the update's element.
  Read at ONE index `i` of the operand this says: if no update index lands on `i`, the entry is the operand's; if exactly
  one update index `j` lands on `i`, the entry is the combiner of the operand's entry and the update's element at `j` —
  whatever the other updates do elsewhere, and however many of them there are. Where an update index lands is
  `start + window` on every axis, when that is inside the operand.
-/
import Idealize.ShloMosaic.PureOps.ShapeOps

namespace Cert.LibScatter

open Idealize.ShloMosaic

section Fold

variable {ι κ α : Type} [DecidableEq ι]

/-- One step of the fold: update number `n` lands on `g n`, if anywhere, and is combined into the entry there. -/
def step (f : α → α → α) (g : κ → Option ι) (v : κ → α) (r : ι → α) (n : κ) : ι → α :=
  match g n with
  | some i => fun i' => if i' = i then f (r i) (v n) else r i'
  | none => r

/-- A step whose update does not land on `i` leaves the entry at `i`. -/
theorem step_of_ne (f : α → α → α) (g : κ → Option ι) (v : κ → α) (r : ι → α) (n : κ) (i : ι) (h : g n ≠ some i) :
    step f g v r n i = r i := by
  unfold step
  cases hg : g n with
  | none => rfl
  | some i₀ =>
    have hne : i ≠ i₀ := fun e => h (by rw [hg, e])
    simp only [if_neg hne]

/-- A step whose update lands on `i` combines it into the entry at `i`. -/
theorem step_of_eq (f : α → α → α) (g : κ → Option ι) (v : κ → α) (r : ι → α) (n : κ) (i : ι) (h : g n = some i) :
    step f g v r n i = f (r i) (v n) := by
  unfold step
  rw [h]
  simp only [if_true]

/-- Folding steps none of which lands on `i` leaves the entry at `i`. -/
theorem foldl_miss (f : α → α → α) (g : κ → Option ι) (v : κ → α) (l : List κ) (r : ι → α) (i : ι)
    (h : ∀ n ∈ l, g n ≠ some i) : (l.foldl (step f g v) r) i = r i := by
  induction l generalizing r with
  | nil => rfl
  | cons n l ih =>
    rw [List.foldl_cons, ih _ (fun n' hn' => h n' (List.mem_cons_of_mem _ hn')),
      step_of_ne f g v r n i (h n List.mem_cons_self)]

/-- Folding steps over a list without repeats, exactly one of which (`n₀`) lands on `i`: the entry at `i` is combined
    once, with `n₀`'s element. -/
theorem foldl_hit (f : α → α → α) (g : κ → Option ι) (v : κ → α) (l : List κ) (hl : l.Nodup) (r : ι → α) (i : ι) (n₀ : κ)
    (hn₀ : n₀ ∈ l) (hg : g n₀ = some i) (huniq : ∀ n ∈ l, g n = some i → n = n₀) :
    (l.foldl (step f g v) r) i = f (r i) (v n₀) := by
  induction l generalizing r with
  | nil => cases hn₀
  | cons n l ih =>
    rw [List.foldl_cons]
    have hnd := List.nodup_cons.mp hl
    by_cases hn : n = n₀
    · subst hn
      rw [foldl_miss f g v l _ i (fun n' hn' e => hnd.1 ((huniq n' (List.mem_cons_of_mem _ hn') e) ▸ hn')),
        step_of_eq f g v r n i hg]
    · have hmem : n₀ ∈ l := by
        rcases List.mem_cons.mp hn₀ with e | h'
        · exact absurd e.symm hn
        · exact h'
      rw [ih hnd.2 _ hmem (fun n' hn' => huniq n' (List.mem_cons_of_mem _ hn')),
        step_of_ne f g v r n i (fun e => hn (huniq n List.mem_cons_self e))]

end Fold

section Scatter

variable {s si u : Shape} {α : Type} {w : Nat}

/-- The scatter is the fold of the steps above over the update's row-major positions. -/
theorem scatter_eq_foldl (d : ScatterDims s si u) (f : α → α → α) (x : s.Idx → α) (idx : IVec si w) (upd : u.Idx → α) :
    Host.scatter d f x idx upd
      = (List.finRange u.numel).foldl
          (step f (fun n => d.resultIdx? (u.rowMajor.symm n) idx) (fun n => upd (u.rowMajor.symm n))) x := by
  unfold Host.scatter
  congr 1
  funext r n
  unfold step
  beta_reduce
  cases d.resultIdx? (u.rowMajor.symm n) idx <;> rfl

/-- An index of the operand no update lands on keeps the operand's entry. -/
theorem scatter_apply_of_miss (d : ScatterDims s si u) (f : α → α → α) (x : s.Idx → α) (idx : IVec si w) (upd : u.Idx → α)
    (i : s.Idx) (h : ∀ j : u.Idx, d.resultIdx? j idx ≠ some i) : Host.scatter d f x idx upd i = x i := by
  rw [scatter_eq_foldl]
  exact foldl_miss f (fun n => d.resultIdx? (u.rowMajor.symm n) idx) (fun n => upd (u.rowMajor.symm n)) _ x i (fun n _ => h _)

/-- An index of the operand exactly one update index `j` lands on holds the combiner of the operand's entry and the
    update's element at `j`. -/
theorem scatter_apply_of_hit (d : ScatterDims s si u) (f : α → α → α) (x : s.Idx → α) (idx : IVec si w) (upd : u.Idx → α)
    (i : s.Idx) (j : u.Idx) (hj : d.resultIdx? j idx = some i) (huniq : ∀ j', d.resultIdx? j' idx = some i → j' = j) :
    Host.scatter d f x idx upd i = f (x i) (upd j) := by
  have h := foldl_hit f (fun n => d.resultIdx? (u.rowMajor.symm n) idx) (fun n => upd (u.rowMajor.symm n))
    (List.finRange u.numel) (List.nodup_finRange _) x i (u.rowMajor j) (List.mem_finRange _)
    (by simp only [Equiv.symm_apply_apply]; exact hj)
    (fun n _ e => by
      have := huniq _ e
      rw [← this, Equiv.apply_symm_apply])
  simp only [Equiv.symm_apply_apply] at h
  rw [scatter_eq_foldl]
  exact h

/-- Where an update index lands: `i`, exactly when on every axis `i`'s coordinate is the window's start plus the
    coordinate inside the window. -/
theorem resultIdx?_eq_some_iff (d : ScatterDims s si u) (j : u.Idx) (idx : IVec si w) (i : s.Idx) :
    d.resultIdx? j idx = some i ↔ ∀ a, d.start j idx a + (d.window j a : Int) = ((i a).val : Int) := by
  unfold ScatterDims.resultIdx?
  split
  · rename_i h
    constructor
    · intro e a
      have hv := congrArg Fin.val (congrFun (Option.some.inj e) a)
      have := h a
      simp only at hv
      omega
    · intro e
      congr 1
      funext a
      apply Fin.ext
      have := e a
      have := h a
      simp only
      omega
  · rename_i h
    constructor
    · intro e; cases e
    · intro e
      exfalso
      apply h
      intro a
      have := e a
      have := (i a).isLt
      omega

end Scatter

end Cert.LibScatter
-- ==== Proof.ColsAdd.lean ====
/-
  The two scatters of this program pair, read at an index.

  Both programs add a 1024-column-wide update into a 3072-column-wide operand at ONE start index: column `c` of the last
  axis (`c = 0` for the query slice, `c = 2048` for the value slice), every other axis taken whole. Update index `j` lands
  on the operand index with the same leading coordinates and last coordinate `c + j_last`; so distinct update indices land on
  distinct operand indices, an operand index with last coordinate `q` in `[c, c + 1024)` is met exactly once, by the update
  index with last coordinate `q − c`, and one outside that range is met by none. On the 2-axis weight matrix `[1024, 3072]`
  this is the folding of a correction into a column slice of the weights; on the 3-axis result `[4, 4096, 3072]` it is the
  addition of a correction into a column slice of the result.
-/
import proofs.«120663_j47656957116918_2_alg».proof.Proof.Gen.KernelIdeal
import proofs.«120663_j47656957116918_2_alg».proof.Proof.Gen.ReferenceIdeal
import proofs.«120663_j47656957116918_2_alg».proof.Proof.LibScatterAt
import Idealize.ShloMosaic.Lib.ValueIdx

noncomputable section

open Idealize.ShloMosaic Idealize.ShloMosaic.ValueIdx Cert.LibScatter

/-! ## Into a column slice of the `[1024, 3072]` matrix -/

namespace Cert.KernelIdeal.ColsAdd

open Cert.KernelIdeal Cert.KernelIdeal.Gen

/-- The scatter's shape record: windows over both axes, the start index naming axis 1. -/
abbrev dW : ScatterDims S1024x3072 S1 S1024x1024 := scatter_S1024x3072_S1_S1024x1024_01_n_1_0

theorem start0 (j : S1024x1024.Idx) (idx : IVec S1 32) : ScatterDims.start dW j idx 0 = 0 := by
  unfold ScatterDims.start
  rw [dif_neg (show ¬ (0 : Fin S1024x3072.rank) ∈ dW.scatterDimsToOperandDims by decide)]

theorem start1 (j : S1024x1024.Idx) (idx : IVec S1 32) (c : Int) (hidx : ∀ k, (idx k).toInt = c) :
    ScatterDims.start dW j idx 1 = c := by
  unfold ScatterDims.start
  rw [dif_pos (show (1 : Fin S1024x3072.rank) ∈ dW.scatterDimsToOperandDims by decide)]
  exact hidx _

theorem window0 (j : S1024x1024.Idx) : ScatterDims.window dW j 0 = (j 0).val := by
  unfold ScatterDims.window
  rw [dif_pos (show (0 : Fin S1024x3072.rank) ∈ dW.sKept by decide)]
  rfl

theorem window1 (j : S1024x1024.Idx) : ScatterDims.window dW j 1 = (j 1).val := by
  unfold ScatterDims.window
  rw [dif_pos (show (1 : Fin S1024x3072.rank) ∈ dW.sKept by decide)]
  rfl

/-- The matrix after the scatter, at row `p` and column `q`: combined with the update's entry `(p, q − c)` inside the
    slice `[c, c + 1024)`, untouched outside it. -/
theorem scatter_apply {α : Type} (f : α → α → α) (x : S1024x3072.Idx → α) (idx : IVec S1 32) (upd : S1024x1024.Idx → α)
    (c : Nat) (hc : c + 1024 ≤ 3072) (hidx : ∀ k, (idx k).toInt = (c : Int)) (p : Fin 1024) (q : Fin 3072) :
    Host.scatter dW f x idx upd (ix2 p q)
      = if h : c ≤ q.val ∧ q.val < c + 1024 then f (x (ix2 p q)) (upd (ix2 p ⟨q.val - c, by omega⟩)) else x (ix2 p q) := by
  by_cases h : c ≤ q.val ∧ q.val < c + 1024
  · rw [dif_pos h]
    refine scatter_apply_of_hit dW f x idx upd (ix2 p q) (ix2 p ⟨q.val - c, by omega⟩) ?_ ?_
    · rw [resultIdx?_eq_some_iff]
      intro a
      match a with
      | ⟨0, _⟩ =>
        show ScatterDims.start dW _ idx 0 + (ScatterDims.window dW _ 0 : Int) = ((p.val : Nat) : Int)
        rw [start0, window0]
        show (0 : Int) + ((p.val : Nat) : Int) = _
        omega
      | ⟨1, _⟩ =>
        show ScatterDims.start dW _ idx 1 + (ScatterDims.window dW _ 1 : Int) = ((q.val : Nat) : Int)
        rw [start1 _ _ _ hidx, window1]
        show (c : Int) + ((q.val - c : Nat) : Int) = _
        omega
    · intro j' hj'
      rw [resultIdx?_eq_some_iff] at hj'
      have h0 := hj' 0
      have h1 := hj' 1
      rw [start0, window0] at h0
      rw [start1 _ _ _ hidx, window1] at h1
      have e0 : ((ix2 p q : S1024x3072.Idx) 0).val = p.val := rfl
      have e1 : ((ix2 p q : S1024x3072.Idx) 1).val = q.val := rfl
      funext a
      apply Fin.ext
      match a with
      | ⟨0, _⟩ => show (j' 0).val = p.val; omega
      | ⟨1, _⟩ => show (j' 1).val = q.val - c; omega
  · rw [dif_neg h]
    refine scatter_apply_of_miss dW f x idx upd (ix2 p q) (fun j hj => h ?_)
    rw [resultIdx?_eq_some_iff] at hj
    have h1 := hj 1
    rw [start1 _ _ _ hidx, window1] at h1
    have hlt : (j 1).val < 1024 := (j 1).isLt
    have e1 : ((ix2 p q : S1024x3072.Idx) 1).val = q.val := rfl
    omega

end Cert.KernelIdeal.ColsAdd

/-! ## Into a column slice of the `[4, 4096, 3072]` result -/

namespace Cert.ReferenceIdeal.ColsAdd

open Cert.ReferenceIdeal Cert.ReferenceIdeal.Gen

/-- The scatter's shape record: windows over all three axes, the start index naming axis 2. -/
abbrev dR : ScatterDims S4x4096x3072 S1 S4x4096x1024 := scatter_S4x4096x3072_S1_S4x4096x1024_012_n_2_0

theorem start0 (j : S4x4096x1024.Idx) (idx : IVec S1 32) : ScatterDims.start dR j idx 0 = 0 := by
  unfold ScatterDims.start
  rw [dif_neg (show ¬ (0 : Fin S4x4096x3072.rank) ∈ dR.scatterDimsToOperandDims by decide)]

theorem start1 (j : S4x4096x1024.Idx) (idx : IVec S1 32) : ScatterDims.start dR j idx 1 = 0 := by
  unfold ScatterDims.start
  rw [dif_neg (show ¬ (1 : Fin S4x4096x3072.rank) ∈ dR.scatterDimsToOperandDims by decide)]

theorem start2 (j : S4x4096x1024.Idx) (idx : IVec S1 32) (c : Int) (hidx : ∀ k, (idx k).toInt = c) :
    ScatterDims.start dR j idx 2 = c := by
  unfold ScatterDims.start
  rw [dif_pos (show (2 : Fin S4x4096x3072.rank) ∈ dR.scatterDimsToOperandDims by decide)]
  exact hidx _

theorem window0 (j : S4x4096x1024.Idx) : ScatterDims.window dR j 0 = (j 0).val := by
  unfold ScatterDims.window
  rw [dif_pos (show (0 : Fin S4x4096x3072.rank) ∈ dR.sKept by decide)]
  rfl

theorem window1 (j : S4x4096x1024.Idx) : ScatterDims.window dR j 1 = (j 1).val := by
  unfold ScatterDims.window
  rw [dif_pos (show (1 : Fin S4x4096x3072.rank) ∈ dR.sKept by decide)]
  rfl

theorem window2 (j : S4x4096x1024.Idx) : ScatterDims.window dR j 2 = (j 2).val := by
  unfold ScatterDims.window
  rw [dif_pos (show (2 : Fin S4x4096x3072.rank) ∈ dR.sKept by decide)]
  rfl

/-- The result after the scatter, at token `(b, s)` and column `q`: combined with the update's entry `(b, s, q − c)` inside
    the slice `[c, c + 1024)`, untouched outside it. -/
theorem scatter_apply {α : Type} (f : α → α → α) (x : S4x4096x3072.Idx → α) (idx : IVec S1 32) (upd : S4x4096x1024.Idx → α)
    (c : Nat) (hc : c + 1024 ≤ 3072) (hidx : ∀ k, (idx k).toInt = (c : Int)) (b : Fin 4) (s : Fin 4096) (q : Fin 3072) :
    Host.scatter dR f x idx upd (ix3 b s q)
      = if h : c ≤ q.val ∧ q.val < c + 1024 then f (x (ix3 b s q)) (upd (ix3 b s ⟨q.val - c, by omega⟩)) else x (ix3 b s q) := by
  by_cases h : c ≤ q.val ∧ q.val < c + 1024
  · rw [dif_pos h]
    refine scatter_apply_of_hit dR f x idx upd (ix3 b s q) (ix3 b s ⟨q.val - c, by omega⟩) ?_ ?_
    · rw [resultIdx?_eq_some_iff]
      intro a
      match a with
      | ⟨0, _⟩ =>
        show ScatterDims.start dR _ idx 0 + (ScatterDims.window dR _ 0 : Int) = ((b.val : Nat) : Int)
        rw [start0, window0]
        show (0 : Int) + ((b.val : Nat) : Int) = _
        omega
      | ⟨1, _⟩ =>
        show ScatterDims.start dR _ idx 1 + (ScatterDims.window dR _ 1 : Int) = ((s.val : Nat) : Int)
        rw [start1, window1]
        show (0 : Int) + ((s.val : Nat) : Int) = _
        omega
      | ⟨2, _⟩ =>
        show ScatterDims.start dR _ idx 2 + (ScatterDims.window dR _ 2 : Int) = ((q.val : Nat) : Int)
        rw [start2 _ _ _ hidx, window2]
        show (c : Int) + ((q.val - c : Nat) : Int) = _
        omega
    · intro j' hj'
      rw [resultIdx?_eq_some_iff] at hj'
      have h0 := hj' 0
      have h1 := hj' 1
      have h2 := hj' 2
      rw [start0, window0] at h0
      rw [start1, window1] at h1
      rw [start2 _ _ _ hidx, window2] at h2
      have e0 : ((ix3 b s q : S4x4096x3072.Idx) 0).val = b.val := rfl
      have e1 : ((ix3 b s q : S4x4096x3072.Idx) 1).val = s.val := rfl
      have e2 : ((ix3 b s q : S4x4096x3072.Idx) 2).val = q.val := rfl
      funext a
      apply Fin.ext
      match a with
      | ⟨0, _⟩ => show (j' 0).val = b.val; omega
      | ⟨1, _⟩ => show (j' 1).val = s.val; omega
      | ⟨2, _⟩ => show (j' 2).val = q.val - c; omega
  · rw [dif_neg h]
    refine scatter_apply_of_miss dR f x idx upd (ix3 b s q) (fun j hj => h ?_)
    rw [resultIdx?_eq_some_iff] at hj
    have h2 := hj 2
    rw [start2 _ _ _ hidx, window2] at h2
    have hlt : (j 2).val < 1024 := (j 2).isLt
    have e2 : ((ix3 b s q : S4x4096x3072.Idx) 2).val = q.val := rfl
    omega

end Cert.ReferenceIdeal.ColsAdd

end
-- ==== Proof.RefIsSpec.lean ====
/-
  The reference computes the specification.

  Read at token `(b, s)` and column `e`: the first stage is the plain projection plus bias; each low-rank branch is two
  chained products, `Σ_r (Σ_d x[b,s,d] · A[r,d]) · B[e',r]`; the two scatters add the query branch into columns
  `[0, 1024)` and the value branch (at column `e − 2048`) into columns `[2048, 3072)`. That is the specification's case
  split, term for term; no law of arithmetic is used.
-/
import proofs.«120663_j47656957116918_2_alg».proof.Proof.Gen.ReferenceIdeal.Read
import proofs.«120663_j47656957116918_2_alg».proof.Proof.QkvLora
import proofs.«120663_j47656957116918_2_alg».proof.Proof.ColsAdd

noncomputable section

namespace Cert.ReferenceIdeal.RefValue

open Cert.ReferenceIdeal Cert.ReferenceIdeal.Gen Cert.ReferenceIdeal.Read Idealize.ShloMosaic Idealize.ShloMosaic.ValueIdx Cert.QkvLora

/-- The projection stage at `(b, s, e)`. -/
theorem base_eq (x0 : (⟨S4x4096x1024, .f32⟩ : BufTy).Contents (Elt Ideal)) (x1 : (⟨S3072x1024, .f32⟩ : BufTy).Contents (Elt Ideal))
    (x2 : (⟨S3072, .f32⟩ : BufTy).Contents (Elt Ideal)) (b : Fin 4) (s : Fin 4096) (e : Fin 3072) :
    val_main_v3 (F := Ideal) x0 x1 x2 (ix3 b s e) = base x0 x1 x2 b s e := by
  have el : ∀ k, lidx_main_v0 (ix3 b s e) k = ix3 b s k := fun k => funext fun a => by
    match a with | ⟨0, _⟩ => rfl | ⟨1, _⟩ => rfl | ⟨2, _⟩ => rfl
  have er : ∀ k, ridx_main_v0 (ix3 b s e) k = ix2 e k := fun k => funext fun a => by
    match a with | ⟨0, _⟩ => rfl | ⟨1, _⟩ => rfl
  have eb : idx_main_v1 (idx_main_v2 (ix3 b s e)) = ix1 e := funext fun a => by
    match a with | ⟨0, _⟩ => rfl
  rw [val_main_v3_apply, val_main_v0_apply, val_main_v2_apply, val_main_v1_apply]
  simp only [el, er, eb]
  rfl

/-- The query branch at `(b, s, e')`. -/
theorem low_q_eq (x0 : (⟨S4x4096x1024, .f32⟩ : BufTy).Contents (Elt Ideal)) (x3 : (⟨S16x1024, .f32⟩ : BufTy).Contents (Elt Ideal))
    (x4 : (⟨S1024x16, .f32⟩ : BufTy).Contents (Elt Ideal)) (b : Fin 4) (s : Fin 4096) (e' : Fin 1024) :
    val_main_v5 (F := Ideal) x0 x3 x4 (ix3 b s e') = low x0 x3 x4 b s e' := by
  have el : ∀ r, lidx_main_v5 (ix3 b s e') r = ix3 b s r := fun r => funext fun a => by
    match a with | ⟨0, _⟩ => rfl | ⟨1, _⟩ => rfl | ⟨2, _⟩ => rfl
  have er : ∀ r, ridx_main_v5 (ix3 b s e') r = ix2 e' r := fun r => funext fun a => by
    match a with | ⟨0, _⟩ => rfl | ⟨1, _⟩ => rfl
  have el4 : ∀ (r : Fin 16) d, lidx_main_v4 (ix3 b s r) d = ix3 b s d := fun r d => funext fun a => by
    match a with | ⟨0, _⟩ => rfl | ⟨1, _⟩ => rfl | ⟨2, _⟩ => rfl
  have er4 : ∀ (r : Fin 16) d, ridx_main_v4 (ix3 b s r) d = ix2 r d := fun r d => funext fun a => by
    match a with | ⟨0, _⟩ => rfl | ⟨1, _⟩ => rfl
  rw [val_main_v5_apply]
  simp only [el, er, val_main_v4_apply, el4, er4]
  rfl

/-- The value branch at `(b, s, e')`. -/
theorem low_v_eq (x0 : (⟨S4x4096x1024, .f32⟩ : BufTy).Contents (Elt Ideal)) (x5 : (⟨S16x1024, .f32⟩ : BufTy).Contents (Elt Ideal))
    (x6 : (⟨S1024x16, .f32⟩ : BufTy).Contents (Elt Ideal)) (b : Fin 4) (s : Fin 4096) (e' : Fin 1024) :
    val_main_v7 (F := Ideal) x0 x5 x6 (ix3 b s e') = low x0 x5 x6 b s e' := by
  have el : ∀ r, lidx_main_v7 (ix3 b s e') r = ix3 b s r := fun r => funext fun a => by
    match a with | ⟨0, _⟩ => rfl | ⟨1, _⟩ => rfl | ⟨2, _⟩ => rfl
  have er : ∀ r, ridx_main_v7 (ix3 b s e') r = ix2 e' r := fun r => funext fun a => by
    match a with | ⟨0, _⟩ => rfl | ⟨1, _⟩ => rfl
  have el6 : ∀ (r : Fin 16) d, lidx_main_v6 (ix3 b s r) d = ix3 b s d := fun r d => funext fun a => by
    match a with | ⟨0, _⟩ => rfl | ⟨1, _⟩ => rfl | ⟨2, _⟩ => rfl
  have er6 : ∀ (r : Fin 16) d, ridx_main_v6 (ix3 b s r) d = ix2 r d := fun r d => funext fun a => by
    match a with | ⟨0, _⟩ => rfl | ⟨1, _⟩ => rfl
  rw [val_main_v7_apply]
  simp only [el, er, val_main_v6_apply, el6, er6]
  rfl

/-- The first scatter's start index is column 0, -/
theorem start_q (k : S1.Idx) : (val_main_v8 (F := Ideal) k).toInt = ((0 : Nat) : Int) := by
  rw [val_main_v8_apply, val_main_c_apply]; rfl
/-- and the second's column 2048. -/
theorem start_v (k : S1.Idx) : (val_main_v10 (F := Ideal) k).toInt = ((2048 : Nat) : Int) := by
  rw [val_main_v10_apply, val_main_c_0_apply]; rfl

/-- THE REFERENCE IS THE SPECIFICATION, as whole arrays. -/
theorem ref_eq (x0 : (⟨S4x4096x1024, .f32⟩ : BufTy).Contents (Elt Ideal)) (x1 : (⟨S3072x1024, .f32⟩ : BufTy).Contents (Elt Ideal))
    (x2 : (⟨S3072, .f32⟩ : BufTy).Contents (Elt Ideal)) (x3 : (⟨S16x1024, .f32⟩ : BufTy).Contents (Elt Ideal))
    (x4 : (⟨S1024x16, .f32⟩ : BufTy).Contents (Elt Ideal)) (x5 : (⟨S16x1024, .f32⟩ : BufTy).Contents (Elt Ideal))
    (x6 : (⟨S1024x16, .f32⟩ : BufTy).Contents (Elt Ideal)) :
    val_main_v11 (F := Ideal) x0 x1 x2 x3 x4 x5 x6 = G x0 x1 x2 x3 x4 x5 x6 := by
  funext i
  obtain ⟨b, s, e, rfl⟩ : ∃ (b : Fin 4) (s : Fin 4096) (e : Fin 3072), i = ix3 b s e := ⟨i 0, i 1, i 2, eq_ix3 i⟩
  show _ = out x0 x1 x2 x3 x4 x5 x6 b s e
  unfold val_main_v11
  rw [ColsAdd.scatter_apply FloatOps.addf _ _ _ 2048 (by decide) start_v b s e]
  unfold val_main_v9
  rw [ColsAdd.scatter_apply FloatOps.addf _ _ _ 0 (by decide) start_q b s e]
  unfold out
  have he : e.val < 3072 := e.isLt
  by_cases h1 : e.val < 1024
  · rw [dif_neg (show ¬(2048 ≤ e.val ∧ e.val < 2048 + 1024) by omega), dif_pos (show 0 ≤ e.val ∧ e.val < 0 + 1024 by omega),
      dif_pos h1, base_eq, low_q_eq]
    rfl
  · by_cases h2 : 2048 ≤ e.val
    · rw [dif_pos (show 2048 ≤ e.val ∧ e.val < 2048 + 1024 by omega), dif_neg (show ¬(0 ≤ e.val ∧ e.val < 0 + 1024) by omega),
        dif_neg h1, dif_pos h2, base_eq, low_v_eq]
      rfl
    · rw [dif_neg (show ¬(2048 ≤ e.val ∧ e.val < 2048 + 1024) by omega), dif_neg (show ¬(0 ≤ e.val ∧ e.val < 0 + 1024) by omega),
        dif_neg h1, dif_neg h2, base_eq]

end Cert.ReferenceIdeal.RefValue

end
-- ==== Proof.Block.lean ====
/-
  What one grid point computes.

  The body loads a block of 512 token rows `x` (`[512, 1024]`), the whole weight matrix `w` (`[1024, 3072]`, already
  transposed and corrected on the host) and the bias row `β` (`[1, 3072]`), and stores `x · w + β`: at row `p` and column
  `q` of the block, `(Σ_k x[p,k] · w[k,q]) + β[0,q]`. Rounding the operands to a narrower float format is the identity on
  extended reals, and the product accumulates into zero.
-/
import proofs.«120663_j47656957116918_2_alg».proof.Proof.Gen.KernelIdeal.Skeleton
import Idealize.ShloMosaic.Lib.Pipeline.Value
import Idealize.ShloMosaic.Lib.ValueIdx
import Idealize.ShloMosaic.PureOps.Ideal.Laws

noncomputable section

namespace Cert.KernelIdeal.BlockValue

open Cert.KernelIdeal Cert.KernelIdeal.Gen Idealize.ShloMosaic Idealize.ShloMosaic.ValueIdx

/-- The product's shape record: rows of the left operand against columns of the right, one contracted axis of extent 1024. -/
abbrev dM : DotDims S512x1024 S1024x3072 S512x3072 := dot_S512x1024_S1024x3072_S512x3072_1_0_0_1_n_n

theorem lhs0 (j : S512x3072.Idx) (k : dM.contr.Idx) : (dM.lhsIdx j k 0).val = (j 0).val := by
  unfold DotDims.lhsIdx
  rw [dif_neg (show ¬(0 : Fin S512x1024.rank) ∈ dM.lhsBatch by decide), dif_pos (show (0 : Fin S512x1024.rank) ∈ dM.lhsNonContracting by decide)]
  rfl
theorem lhs1 (j : S512x3072.Idx) (k : dM.contr.Idx) : (dM.lhsIdx j k 1).val = (k ⟨0, by decide⟩).val :=
  dM.lhsIdx_val_of_single rfl j k
theorem rhs0 (j : S512x3072.Idx) (k : dM.contr.Idx) : (dM.rhsIdx j k 0).val = (k ⟨0, by decide⟩).val :=
  dM.rhsIdx_val_of_single rfl j k
theorem rhs1 (j : S512x3072.Idx) (k : dM.contr.Idx) : (dM.rhsIdx j k 1).val = (j 1).val := by
  unfold DotDims.rhsIdx
  rw [dif_neg (show ¬(1 : Fin S1024x3072.rank) ∈ dM.rhsBatch by decide), dif_pos (show (1 : Fin S1024x3072.rank) ∈ dM.rhsNonContracting by decide)]
  rfl

/-- The block product into a zero accumulator, at row `p` and column `q`: the sum over the contracted coordinate. -/
theorem product_apply (l : FVec Ideal S512x1024 .bf16) (r : FVec Ideal S1024x3072 .bf16) (p : Fin 512) (q : Fin 3072) :
    matmul dM none l r (constant (F := Ideal) S512x3072 .f32 0x00000000#32) (ix2 p q) = ∑ k : Fin 1024, l (ix2 p k) * r (ix2 k q) := by
  refine (Ideal.matmul_constant_zero_apply dM none l r (ix2 p q)).trans ?_
  rw [← Equiv.sum_comp (ValueIdx.contrEquiv1 dM 1024 rfl rfl).symm]
  refine Finset.sum_congr rfl fun k _ => ?_
  have hk := ValueIdx.contrEquiv1_symm_val dM 1024 rfl rfl k
  have el : dM.lhsIdx (ix2 p q) ((ValueIdx.contrEquiv1 dM 1024 rfl rfl).symm k) = ix2 p k := funext fun a => Fin.ext (by
    match a with
    | ⟨0, _⟩ => exact lhs0 _ _
    | ⟨1, _⟩ => exact (lhs1 _ _).trans hk)
  have er : dM.rhsIdx (ix2 p q) ((ValueIdx.contrEquiv1 dM 1024 rfl rfl).symm k) = ix2 k q := funext fun a => Fin.ext (by
    match a with
    | ⟨0, _⟩ => exact (rhs0 _ _).trans hk
    | ⟨1, _⟩ => exact rhs1 _ _)
  rw [el, er]

/-- The bias row broadcast down the block's rows, at `(p, q)`: the row's entry at column `q`. -/
theorem bias_apply (β : FVec Ideal S1x3072 .f32) (p : Fin 512) (q : Fin 3072) :
    broadcastTo S512x3072 β broadcasts_S1x3072_S512x3072 (ix2 p q) = β (ix2 (0 : Fin 1) q) :=
  broadcastTo_apply β broadcasts_S1x3072_S512x3072 (ix2 p q) (ix2 (0 : Fin 1) q) (fun a => by
    match a with
    | ⟨0, _⟩ => show 0 = if (1 : Nat) = 1 then 0 else p.val; rw [if_pos rfl]
    | ⟨1, _⟩ => show q.val = if (3072 : Nat) = 1 then 0 else q.val; rw [if_neg (by decide)])

/-- WHAT THE BODY STORES, at row `p` and column `q` of the block. -/
theorem stored_apply (x : FVec Ideal S512x1024 .f32) (w : FVec Ideal S1024x3072 .bf16) (β : FVec Ideal S1x3072 .f32)
    (p : Fin 512) (q : Fin 3072) :
    k0_pay1 (F := Ideal) x w β (ix2 p q) = (∑ k : Fin 1024, x (ix2 p k) * w (ix2 k q)) + β (ix2 (0 : Fin 1) q) := by
  unfold k0_pay1
  simp only [shapeCast_self]
  show matmul dM none (truncf .bf16 x bitsLt_bf16_f32) w (constant (F := Ideal) S512x3072 .f32 0x00000000#32) (ix2 p q)
      + broadcastTo S512x3072 β broadcasts_S1x3072_S512x3072 (ix2 p q) = _
  rw [product_apply, bias_apply]
  rfl

end Cert.KernelIdeal.BlockValue

end
-- ==== Proof.Staged.lean ====
/-
  The arrays the host prepares for the kernel, read at an index.

  * The tokens flattened: row `m` of `[16384, 1024]` is token `(m / 4096, m % 4096)` of `[4, 4096, 1024]`.
  * The bias as a one-row matrix.
  * The folded weights `[1024, 3072]`: the transpose of `W`, with the transpose of `Bq · Aq` added into columns `[0, 1024)`
    and the transpose of `Bv · Av` added into columns `[2048, 3072)`. At row `k` and column `q` that is `W[q,k]`, plus
    `Σ_r Bq[q,r] · Aq[r,k]` on the first slice, plus `Σ_r Bv[q−2048,r] · Av[r,k]` on the last. (The final change of float
    format is the identity on extended reals.)
-/
import proofs.«120663_j47656957116918_2_alg».proof.Proof.Gen.KernelIdeal
import proofs.«120663_j47656957116918_2_alg».proof.Proof.ColsAdd
import Idealize.ShloMosaic.Lib.Pipeline.Value
import Idealize.ShloMosaic.Lib.ValueIdx
import Idealize.ShloMosaic.PureOps.Ideal.Laws

noncomputable section

namespace Cert.KernelIdeal.Staged

open Cert.KernelIdeal Cert.KernelIdeal.Gen Idealize.ShloMosaic Idealize.ShloMosaic.ValueIdx

/-! ## The low-rank product `B · A` -/

/-- The shape record of `B · A`: `[1024, 16]` against `[16, 1024]`, one contracted axis of extent 16. -/
abbrev dD : DotDims S1024x16 S16x1024 S1024x1024 := dot_S1024x16_S16x1024_S1024x1024_1_0_0_1_n_n

theorem lhs0 (j : S1024x1024.Idx) (k : dD.contr.Idx) : (dD.lhsIdx j k 0).val = (j 0).val := by
  unfold DotDims.lhsIdx
  rw [dif_neg (show ¬(0 : Fin S1024x16.rank) ∈ dD.lhsBatch by decide), dif_pos (show (0 : Fin S1024x16.rank) ∈ dD.lhsNonContracting by decide)]
  rfl
theorem lhs1 (j : S1024x1024.Idx) (k : dD.contr.Idx) : (dD.lhsIdx j k 1).val = (k ⟨0, by decide⟩).val :=
  dD.lhsIdx_val_of_single rfl j k
theorem rhs0 (j : S1024x1024.Idx) (k : dD.contr.Idx) : (dD.rhsIdx j k 0).val = (k ⟨0, by decide⟩).val :=
  dD.rhsIdx_val_of_single rfl j k
theorem rhs1 (j : S1024x1024.Idx) (k : dD.contr.Idx) : (dD.rhsIdx j k 1).val = (j 1).val := by
  unfold DotDims.rhsIdx
  rw [dif_neg (show ¬(1 : Fin S16x1024.rank) ∈ dD.rhsBatch by decide), dif_pos (show (1 : Fin S16x1024.rank) ∈ dD.rhsNonContracting by decide)]
  rfl

/-- `(B · A)[e', k] = Σ_r B[e', r] · A[r, k]`. -/
theorem delta_apply (B : FVec Ideal S1024x16 .f32) (A : FVec Ideal S16x1024 .f32) (e' k : Fin 1024) :
    Host.dotGeneral dD none B A (ix2 e' k) = ∑ r : Fin 16, B (ix2 e' r) * A (ix2 r k) := by
  simp only [Host.dotGeneral]
  rw [Ideal.dotGeneral_apply, ← Equiv.sum_comp (ValueIdx.contrEquiv1 dD 16 rfl rfl).symm]
  refine Finset.sum_congr rfl fun r _ => ?_
  have hr := ValueIdx.contrEquiv1_symm_val dD 16 rfl rfl r
  have el : dD.lhsIdx (ix2 e' k) ((ValueIdx.contrEquiv1 dD 16 rfl rfl).symm r) = ix2 e' r := funext fun a => Fin.ext (by
    match a with
    | ⟨0, _⟩ => exact lhs0 _ _
    | ⟨1, _⟩ => exact (lhs1 _ _).trans hr)
  have er : dD.rhsIdx (ix2 e' k) ((ValueIdx.contrEquiv1 dD 16 rfl rfl).symm r) = ix2 r k := funext fun a => Fin.ext (by
    match a with
    | ⟨0, _⟩ => exact (rhs0 _ _).trans hr
    | ⟨1, _⟩ => exact rhs1 _ _)
  rw [el, er]

/-! ## The three staged arrays -/

/-- The tokens flattened to rows. -/
def rows (x : FVec Ideal S4x4096x1024 .f32) : FVec Ideal S16384x1024 .f32 :=
  shapeCast S16384x1024 x shapeCasts_S4x4096x1024_S16384x1024

/-- The bias as a one-row matrix. -/
def biasRow (β : FVec Ideal S3072 .f32) : FVec Ideal S1x3072 .f32 :=
  shapeCast S1x3072 β shapeCasts_S3072_S1x3072

/-- The folded weights, as the host computes them. -/
def folded (W : FVec Ideal S3072x1024 .f32) (Aq : FVec Ideal S16x1024 .f32) (Bq : FVec Ideal S1024x16 .f32)
    (Av : FVec Ideal S16x1024 .f32) (Bv : FVec Ideal S1024x16 .f32) : FVec Ideal S1024x3072 .bf16 :=
  truncf .bf16
    (Host.scatter scatter_S1024x3072_S1_S1024x1024_01_n_1_0 FloatOps.addf
      (Host.scatter scatter_S1024x3072_S1_S1024x1024_01_n_1_0 FloatOps.addf
        (transpose S1024x3072 [1, 0] W transposes_S3072x1024_S1024x3072_1_0)
        (broadcastInDim S1 ![] bcast_S_S1 (constantI S_ 32 0#32))
        (transpose S1024x1024 [1, 0] (Host.dotGeneral dD none Bq Aq) transposes_S1024x1024_S1024x1024_1_0))
      (broadcastInDim S1 ![] bcast_S_S1 (constantI S_ 32 2048#32))
      (transpose S1024x1024 [1, 0] (Host.dotGeneral dD none Bv Av) transposes_S1024x1024_S1024x1024_1_0))
    bitsLt_bf16_f32

theorem rows_apply (x : FVec Ideal S4x4096x1024 .f32) (b : Fin 4) (s : Fin 4096) (k : Fin 1024) (r : Fin 16384)
    (hr : r.val = b.val * 4096 + s.val) : rows x (ix2 r k) = x (ix3 b s k) := by
  unfold rows
  refine shapeCast_apply x shapeCasts_S4x4096x1024_S16384x1024 (ix2 r k) (ix3 b s k) ?_
  rw [Shape.rowMajor_val_three, Shape.rowMajor_val_two]
  show (b.val * 4096 + s.val) * 1024 + k.val = r.val * 1024 + k.val
  rw [hr]

theorem biasRow_apply (β : FVec Ideal S3072 .f32) (q : Fin 3072) : biasRow β (ix2 (0 : Fin 1) q) = β (ix1 q) := by
  unfold biasRow
  refine shapeCast_apply β shapeCasts_S3072_S1x3072 (ix2 (0 : Fin 1) q) (ix1 q) ?_
  rw [Shape.rowMajor_val_one, Shape.rowMajor_val_two]
  show q.val = 0 * 3072 + q.val
  omega

/-- The transpose of `W` at `(k, q)`. -/
theorem wT_apply (W : FVec Ideal S3072x1024 .f32) (k : Fin 1024) (q : Fin 3072) :
    transpose S1024x3072 [1, 0] W transposes_S3072x1024_S1024x3072_1_0 (ix2 k q) = W (ix2 q k) :=
  transpose_apply [1, 0] W transposes_S3072x1024_S1024x3072_1_0 (ix2 k q) (ix2 q k) (fun b => by
    match b with | ⟨0, _⟩ => rfl | ⟨1, _⟩ => rfl)

/-- The transpose of `B · A` at `(k, e')`. -/
theorem deltaT_apply (B : FVec Ideal S1024x16 .f32) (A : FVec Ideal S16x1024 .f32) (k e' : Fin 1024) :
    transpose S1024x1024 [1, 0] (Host.dotGeneral dD none B A) transposes_S1024x1024_S1024x1024_1_0 (ix2 k e')
      = ∑ r : Fin 16, B (ix2 e' r) * A (ix2 r k) :=
  (transpose_apply [1, 0] (Host.dotGeneral dD none B A) transposes_S1024x1024_S1024x1024_1_0 (ix2 k e') (ix2 e' k) (fun b => by
    match b with | ⟨0, _⟩ => rfl | ⟨1, _⟩ => rfl)).trans (delta_apply B A e' k)

theorem start_q (j : S1.Idx) : ((broadcastInDim S1 ![] bcast_S_S1 (constantI S_ 32 0#32) : IVec S1 32) j).toInt = ((0 : Nat) : Int) := rfl
theorem start_v (j : S1.Idx) : ((broadcastInDim S1 ![] bcast_S_S1 (constantI S_ 32 2048#32) : IVec S1 32) j).toInt = ((2048 : Nat) : Int) := rfl

/-- THE FOLDED WEIGHTS at row `k` and column `q`. -/
theorem folded_apply (W : FVec Ideal S3072x1024 .f32) (Aq : FVec Ideal S16x1024 .f32) (Bq : FVec Ideal S1024x16 .f32)
    (Av : FVec Ideal S16x1024 .f32) (Bv : FVec Ideal S1024x16 .f32) (k : Fin 1024) (q : Fin 3072) :
    folded W Aq Bq Av Bv (ix2 k q)
      = if h : q.val < 1024 then W (ix2 q k) + ∑ r : Fin 16, Bq (ix2 ⟨q.val, h⟩ r) * Aq (ix2 r k)
        else if h2 : 2048 ≤ q.val then W (ix2 q k) + ∑ r : Fin 16, Bv (ix2 ⟨q.val - 2048, by have := q.isLt; omega⟩ r) * Av (ix2 r k)
        else W (ix2 q k) := by
  unfold folded
  refine (ValueIdx.truncf_apply _ bitsLt_bf16_f32 (ix2 k q)).trans ?_
  rw [ColsAdd.scatter_apply FloatOps.addf _ _ _ 2048 (by decide) start_v k q,
    ColsAdd.scatter_apply FloatOps.addf _ _ _ 0 (by decide) start_q k q]
  have hq : q.val < 3072 := q.isLt
  by_cases h1 : q.val < 1024
  · rw [dif_neg (show ¬(2048 ≤ q.val ∧ q.val < 2048 + 1024) by omega), dif_pos (show 0 ≤ q.val ∧ q.val < 0 + 1024 by omega),
      dif_pos h1, wT_apply, deltaT_apply]
    rfl
  · by_cases h2 : 2048 ≤ q.val
    · rw [dif_pos (show 2048 ≤ q.val ∧ q.val < 2048 + 1024 by omega), dif_neg (show ¬(0 ≤ q.val ∧ q.val < 0 + 1024) by omega),
        dif_neg h1, dif_pos h2, wT_apply, deltaT_apply]
      rfl
    · rw [dif_neg (show ¬(2048 ≤ q.val ∧ q.val < 2048 + 1024) by omega), dif_neg (show ¬(0 ≤ q.val ∧ q.val < 0 + 1024) by omega),
        dif_neg h1, dif_neg h2, wT_apply]

/-! ## The kernel's product of the staged arrays -/

/-- Every row of the staged tokens times the staged weights, plus the staged bias row: `[16384, 3072]`. Each grid point
    computes 512 consecutive rows of it. -/
def product (X : FVec Ideal S16384x1024 .f32) (Wt : FVec Ideal S1024x3072 .bf16) (β2 : FVec Ideal S1x3072 .f32) :
    FVec Ideal S16384x3072 .f32 :=
  fun j => (∑ k : Fin 1024, X (ix2 (j 0) k) * Wt (ix2 k (j 1))) + β2 (ix2 (0 : Fin 1) (j 1))

end Cert.KernelIdeal.Staged

end
-- ==== Proof.BlockReads.lean ====
/-
  Which entries of its arrays a grid point reads and writes.

  The grid has 32 points. Point `t` reads rows `[512·t, 512·t + 512)` of the flattened tokens, the whole folded weight
  matrix and the whole bias row, and its result block is rows `[512·t, 512·t + 512)` of the `[16384, 3072]` result array.
  Stated for ANY contents of the four arrays: which entry a block's entry is does not depend on what the arrays hold.
-/
import proofs.«120663_j47656957116918_2_alg».proof.Proof.Gen.KernelIdeal.Frame
import Idealize.ShloMosaic.Lib.Pipeline.Value
import Idealize.ShloMosaic.Lib.ValueIdx

set_option maxRecDepth 16384

noncomputable section

namespace Cert.KernelIdeal.BlockReads

open Cert.KernelIdeal Cert.KernelIdeal.Gen Idealize.ShloMosaic Idealize.ShloMosaic.TcCoe Idealize.SL.Sem Idealize.ShloMosaic.ValueIdx
open Idealize.ShloMosaic.Pipeline (Dat Cfg Window)

/-! ## The index maps, over the grid -/

theorem hz : (![0, 0] : Fin 2 → Nat) = fun _ => 0 := funext fun a => by fin_cases a <;> rfl

/-- The token window and the result window move down one block of rows per point; the weights and the bias stay put. -/
theorem idx_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0 :=
  (by decide +kernel : ∀ t : Fin grid0.N, _)

theorem point_lt (t : Fin cfg0.N) : t.val < 32 := lt_of_lt_of_eq t.isLt N_0

/-! ## The blocks a point reads, as entries of the arrays -/

/-- Row `p` of point `t`'s token block is row `512·t + p` of the token array. -/
theorem read_tokens (X : (⟨S16384x1024, .f32⟩ : BufTy).Contents (Elt Ideal)) (t : Fin cfg0.N) (p : Fin 512) (k : Fin 1024) :
    ((cfg0.win 0).blk t).view.read (Elt Ideal) X (ix2 p k)
      = X (ix2 (⟨t.val * 512 + p.val, by have := point_lt t; omega⟩ : Fin 16384) k) := by
  obtain ⟨e00, e01, e10, e11, e20, e21, e30, e31⟩ := idx_facts t
  show X (((cfg0.win 0).blk t).view.emb (ix2 p k)) = _
  refine congrArg X (funext fun a => Fin.ext ?_)
  match a with
  | ⟨0, _⟩ => show win0_0.index t (0 : Fin 2) * 512 + 1 * p.val = t.val * 512 + p.val; omega
  | ⟨1, _⟩ => show win0_0.index t (1 : Fin 2) * 1024 + 1 * k.val = k.val; omega

/-- Every point reads the whole weight matrix. -/
theorem read_weights (Wt : (⟨S1024x3072, .bf16⟩ : BufTy).Contents (Elt Ideal)) (t : Fin cfg0.N) (k : Fin 1024) (q : Fin 3072) :
    ((cfg0.win 1).blk t).view.read (Elt Ideal) Wt (ix2 k q) = Wt (ix2 k q) := by
  obtain ⟨e00, e01, e10, e11, e20, e21, e30, e31⟩ := idx_facts t
  show Wt (((cfg0.win 1).blk t).view.emb (ix2 k q)) = _
  refine congrArg Wt (funext fun a => Fin.ext ?_)
  match a with
  | ⟨0, _⟩ => show win0_1.index t (0 : Fin 2) * 1024 + 1 * k.val = k.val; omega
  | ⟨1, _⟩ => show win0_1.index t (1 : Fin 2) * 3072 + 1 * q.val = q.val; omega

/-- Every point reads the whole bias row. -/
theorem read_bias (β2 : (⟨S1x3072, .f32⟩ : BufTy).Contents (Elt Ideal)) (t : Fin cfg0.N) (q : Fin 3072) :
    ((cfg0.win 2).blk t).view.read (Elt Ideal) β2 (ix2 (0 : Fin 1) q) = β2 (ix2 (0 : Fin 1) q) := by
  obtain ⟨e00, e01, e10, e11, e20, e21, e30, e31⟩ := idx_facts t
  show β2 (((cfg0.win 2).blk t).view.emb (ix2 (0 : Fin 1) q)) = _
  refine congrArg β2 (funext fun a => Fin.ext ?_)
  match a with
  | ⟨0, _⟩ => show win0_2.index t (0 : Fin 2) * 1 + 1 * 0 = 0; omega
  | ⟨1, _⟩ => show win0_2.index t (1 : Fin 2) * 3072 + 1 * q.val = q.val; omega

/-- Entry `(p, q)` of point `t`'s result block sits at row `512·t + p`, column `q` of the result array. -/
theorem emb_out (t : Fin cfg0.N) (p : Fin 512) (q : Fin 3072) :
    ((cfg0.win 3).blk t).view.emb (ix2 p q) = ix2 (⟨t.val * 512 + p.val, by have := point_lt t; omega⟩ : Fin 16384) q := by
  obtain ⟨e00, e01, e10, e11, e20, e21, e30, e31⟩ := idx_facts t
  funext a
  apply Fin.ext
  match a with
  | ⟨0, _⟩ => show win0_3.index t (0 : Fin 2) * 512 + 1 * p.val = t.val * 512 + p.val; omega
  | ⟨1, _⟩ => show win0_3.index t (1 : Fin 2) * 3072 + 1 * q.val = q.val; omega

end Cert.KernelIdeal.BlockReads

end
-- ==== Proof.KernelArray.lean ====
/-
  From the grid points' blocks to the kernel's result array.

  What point `t` writes back is block `t` of ONE whole-array function of the three arrays the grid reads — every row of
  the tokens times the weights, plus the bias row —; the 32 blocks of 512 rows tile the `[16384, 3072]` array; so the
  array after the run is that function of the arrays as the grid finds them.
-/
import proofs.«120663_j47656957116918_2_alg».proof.Proof.Gen.KernelIdeal.Frame
import proofs.«120663_j47656957116918_2_alg».proof.Proof.Block
import proofs.«120663_j47656957116918_2_alg».proof.Proof.Staged
import proofs.«120663_j47656957116918_2_alg».proof.Proof.BlockReads
import Idealize.ShloMosaic.Lib.Pipeline.Value

set_option maxRecDepth 16384

noncomputable section

namespace Cert.KernelIdeal.ArrayValue

open Cert.KernelIdeal Cert.KernelIdeal.Gen Idealize.ShloMosaic Idealize.ShloMosaic.TcCoe Idealize.SL.Sem Idealize.ShloMosaic.ValueIdx
open Idealize.ShloMosaic.Pipeline (Dat Cfg Window)
open Cert.KernelIdeal.BlockReads

/-! ## What a point writes back -/

/-- For any contents `X`, `Wt`, `β2` of the three arrays: the body's result on point `t`'s blocks of them is block `t` of
    their product. -/
theorem stored_block (X : (⟨S16384x1024, .f32⟩ : BufTy).Contents (Elt Ideal)) (Wt : (⟨S1024x3072, .bf16⟩ : BufTy).Contents (Elt Ideal))
    (β2 : (⟨S1x3072, .f32⟩ : BufTy).Contents (Elt Ideal)) (t : Fin cfg0.N) :
    (cfg0.win 3).cut (grid0.coords t)
        (out0_3 (((cfg0.win 0).blk t).view.read (Elt Ideal) X) (((cfg0.win 1).blk t).view.read (Elt Ideal) Wt)
          (((cfg0.win 2).blk t).view.read (Elt Ideal) β2))
      = ((cfg0.win 3).blk t).view.read (Elt Ideal) (Staged.product X Wt β2) := by
  unfold out0_3
  rw [View.canon_unit_zero hz]
  simp only [View.ld_unit_zero (S := S512x1024) hz, View.ld_unit_zero (S := S1024x3072) hz, View.ld_unit_zero (S := S1x3072) hz]
  funext j
  obtain ⟨p, q, rfl⟩ : ∃ (p : Fin 512) (q : Fin 3072), j = ix2 p q := ⟨j 0, j 1, eq_ix2 j⟩
  show k0_pay1 (((cfg0.win 0).blk t).view.read (Elt Ideal) X) (((cfg0.win 1).blk t).view.read (Elt Ideal) Wt)
      (((cfg0.win 2).blk t).view.read (Elt Ideal) β2) (ix2 p q)
    = Staged.product X Wt β2 (((cfg0.win 3).blk t).view.emb (ix2 p q))
  refine (BlockValue.stored_apply (((cfg0.win 0).blk t).view.read (Elt Ideal) X) (((cfg0.win 1).blk t).view.read (Elt Ideal) Wt)
    (((cfg0.win 2).blk t).view.read (Elt Ideal) β2) p q).trans ?_
  rw [emb_out t p q]
  show _ = (∑ k : Fin 1024, X (ix2 (⟨t.val * 512 + p.val, by have := point_lt t; omega⟩ : Fin 16384) k) * Wt (ix2 k q))
    + β2 (ix2 (0 : Fin 1) q)
  simp only [read_tokens X t p, read_weights Wt t, read_bias β2 t q]

variable (m : (ℓ : Loc nD τ sig) → Buf (Elt Ideal) ℓ)

/-- WHAT POINT `t` WRITES BACK is block `t` of the product of the three arrays as the grid finds them. -/
theorem flushed_eq (c : Dev nD) (t : Fin cfg0.N) :
    (dats m 0 c).flushed 3 t
      = ((cfg0.win 3).blk t).view.read (Elt Ideal) (Staged.product (V m c main_v0) (V m c main_v10) (V m c main_v11)) := by
  show (cfg0.win 3).cut (grid0.coords t) ((dats m 0 c).after 3 t) = _
  rw [after0_3]
  exact stored_block (V m c main_v0) (V m c main_v10) (V m c main_v11) t

/-! ## The blocks tile the array -/

/-- An index of the result array is in point `t`'s block iff each coordinate is in the block's range on its axis. -/
theorem mem_blk (t : Fin cfg0.N) (i : S16384x3072.Idx) :
    i ∈ ((cfg0.win 3).blk t).view.set ↔ ∀ a : Fin 2, win0_3.index t a * S512x3072.size a ≤ (i a).val ∧ (i a).val < win0_3.index t a * S512x3072.size a + S512x3072.size a := by
  show i ∈ ((View.whole main_v12).slice (win0_3.rect t)).set ↔ _
  rw [View.set_slice_whole, Rect.mem_set_unit]
  exact Iff.rfl

/-- Row `r` is written back by point `r / 512`. -/
theorem cover (i : S16384x3072.Idx) : ∃ t : Fin cfg0.N, (cfg0.win 3).flush t = true ∧ i ∈ ((cfg0.win 3).blk t).view.set := by
  have hi0 : (i 0).val < 16384 := (i 0).isLt
  have hi1 : (i 1).val < 3072 := (i 1).isLt
  have hN : cfg0.N = 32 := N_0
  let t : Fin cfg0.N := ⟨(i 0).val / 512, by rw [hN]; omega⟩
  have ht : t.val = (i 0).val / 512 := rfl
  obtain ⟨e00, e01, e10, e11, e20, e21, e30, e31⟩ := idx_facts t
  refine ⟨t, flush0_3 t, ?_⟩
  rw [mem_blk]
  intro a
  match a with
  | ⟨0, _⟩ => show win0_3.index t (0 : Fin 2) * 512 ≤ (i 0).val ∧ (i 0).val < win0_3.index t (0 : Fin 2) * 512 + 512; omega
  | ⟨1, _⟩ => show win0_3.index t (1 : Fin 2) * 3072 ≤ (i 1).val ∧ (i 1).val < win0_3.index t (1 : Fin 2) * 3072 + 3072; omega

/-- THE RESULT ARRAY AFTER THE RUN is the product of the three arrays as the grid finds them. -/
theorem final (c : Dev nD) :
    (dats m 0 c).arrAt 3 cfg0.N = Staged.product (V m c main_v0) (V m c main_v10) (V m c main_v11) :=
  (dats m 0 c).arrAt_eq_of_cover 3 _ (fun t _ => flushed_eq m c t) cover

end Cert.KernelIdeal.ArrayValue

end
-- ==== Proof.StagedTerms.lean ====
/-
  The three arrays the grid reads are the host's terms of the arguments: the tokens reshaped to rows, the bias reshaped to a
  one-row matrix, and the weights transposed, corrected on two column slices and changed in float format.
-/
import proofs.«120663_j47656957116918_2_alg».proof.Proof.Gen.KernelIdeal.Frame
import proofs.«120663_j47656957116918_2_alg».proof.Proof.Staged
import Idealize.ShloMosaic.Lib.StableHlo.Run

set_option maxRecDepth 16384

noncomputable section

namespace Cert.KernelIdeal.StagedTerms

open Cert.KernelIdeal Cert.KernelIdeal.Gen Idealize.ShloMosaic Idealize.ShloMosaic.TcCoe Idealize.SL.Sem Idealize.ShloMosaic.ValueIdx
open Idealize.ShloMosaic.StableHlo
open Idealize.ShloMosaic.Pipeline (Dat Cfg Window)

variable (m : (ℓ : Loc nD τ sig) → Buf (Elt Ideal) ℓ) (ρ : Dev nD → PrngReg)

/-! ## The staged arrays are the host's terms of the arguments -/

theorem staged_tokens (c : Dev nD) :
    (V m c main_v0 : S16384x1024.Idx → EReal) = Staged.rows (m ((c : Thread nD τ).loc main_arg0)) := by
  show StableHlo.after hostOps0 (fun b => m (c, b)) (Proc.devRef .tc main_v0) = _
  after_results
  rfl

theorem staged_bias (c : Dev nD) :
    (V m c main_v11 : S1x3072.Idx → EReal) = Staged.biasRow (m ((c : Thread nD τ).loc main_arg2)) := by
  show StableHlo.after hostOps0 (fun b => m (c, b)) (Proc.devRef .tc main_v11) = _
  after_results
  rfl

theorem staged_weights (c : Dev nD) :
    (V m c main_v10 : S1024x3072.Idx → EReal)
      = Staged.folded (m ((c : Thread nD τ).loc main_arg1)) (m ((c : Thread nD τ).loc main_arg3)) (m ((c : Thread nD τ).loc main_arg4))
          (m ((c : Thread nD τ).loc main_arg5)) (m ((c : Thread nD τ).loc main_arg6)) := by
  show StableHlo.after hostOps0 (fun b => m (c, b)) (Proc.devRef .tc main_v10) = _
  after_results
  rfl

end Cert.KernelIdeal.StagedTerms

end
-- ==== Proof.KernelIsSpec.lean ====
/-
  The kernel's product of the host-prepared arrays is the specification.

  Row `m` of the flattened tokens is token `(m / 4096, m % 4096)`; the folded weights at row `k` and column `q` are
  `W[q,k]`, plus `Σ_r Bq[q,r] · Aq[r,k]` for `q < 1024`, plus `Σ_r Bv[q−2048,r] · Av[r,k]` for `2048 ≤ q`. So entry `(m, q)` of
  the product is `(Σ_k x[b,s,k] · W'[q,k]) + β[q]` with `W'` the corrected weights. For entries that are real numbers,
  distributing the product over the correction and exchanging the sums over `k` and `r` turns this into the plain
  projection plus the low-rank correction applied to the token first — the specification, column slice by column slice.
-/
import proofs.«120663_j47656957116918_2_alg».proof.Proof.Staged
import proofs.«120663_j47656957116918_2_alg».proof.Proof.QkvLora

noncomputable section

namespace Cert.KernelIdeal.Folded

open Cert.KernelIdeal Cert.KernelIdeal.Gen Cert.KernelIdeal.Staged Idealize.ShloMosaic Idealize.ShloMosaic.ValueIdx Cert.QkvLora

/-- The product of the flattened tokens with the folded weights, plus the bias row, is the specification with the tokens
    flattened, provided every entry of every input is a real number. -/
theorem product_eq_spec (x : FVec Ideal S4x4096x1024 .f32) (W : FVec Ideal S3072x1024 .f32) (β : FVec Ideal S3072 .f32)
    (Aq : FVec Ideal S16x1024 .f32) (Bq : FVec Ideal S1024x16 .f32) (Av : FVec Ideal S16x1024 .f32) (Bv : FVec Ideal S1024x16 .f32)
    (hx : ∀ i, ∃ r : ℝ, x i = (r : EReal)) (hW : ∀ i, ∃ r : ℝ, W i = (r : EReal)) (hβ : ∀ i, ∃ r : ℝ, β i = (r : EReal))
    (hAq : ∀ i, ∃ r : ℝ, Aq i = (r : EReal)) (hBq : ∀ i, ∃ r : ℝ, Bq i = (r : EReal))
    (hAv : ∀ i, ∃ r : ℝ, Av i = (r : EReal)) (hBv : ∀ i, ∃ r : ℝ, Bv i = (r : EReal)) :
    Staged.product (Staged.rows x) (Staged.folded W Aq Bq Av Bv) (Staged.biasRow β) = Cert.QkvLora.Gflat x W β Aq Bq Av Bv := by
  funext j
  -- an index of the result is a row `m` and a column `q`
  obtain ⟨m, q, rfl⟩ : ∃ (m : Fin 16384) (q : Fin 3072), j = ix2 m q := ⟨j 0, j 1, eq_ix2 j⟩
  have hm : m.val < 16384 := m.isLt
  -- row `m` is token `(b, s)` with `m = b · 4096 + s`, and there the specification is `out` at `(b, s, q)`
  obtain ⟨b, s, hms, hG⟩ : ∃ (b : Fin 4) (s : Fin 4096), m.val = b.val * 4096 + s.val ∧
      Gflat x W β Aq Bq Av Bv (ix2 m q) = out x W β Aq Bq Av Bv b s q :=
    ⟨⟨m.val / 4096, by omega⟩, ⟨m.val % 4096, Nat.mod_lt _ (by decide)⟩,
      by show m.val = m.val / 4096 * 4096 + m.val % 4096; omega, rfl⟩
  rw [hG]
  show (∑ k : Fin 1024, rows x (ix2 m k) * folded W Aq Bq Av Bv (ix2 k q)) + biasRow β (ix2 (0 : Fin 1) q) = _
  simp only [fun k => rows_apply x b s k m hms, folded_apply, biasRow_apply]
  unfold out base low
  by_cases h1 : q.val < 1024
  · -- a query column: corrected by `(Aq, Bq)`
    simp only [dif_pos h1]
    exact fold_low_rank (fun d => x (ix3 b s d)) (fun d => W (ix2 q d)) (fun r d => Aq (ix2 r d))
      (fun r => Bq (ix2 ⟨q.val, h1⟩ r)) (β (ix1 q)) (fun d => hx _) (fun d => hW _) (fun r d => hAq _) (fun r => hBq _) (hβ _)
  · by_cases h2 : 2048 ≤ q.val
    · -- a value column: corrected by `(Av, Bv)` at column `q − 2048`
      simp only [dif_neg h1, dif_pos h2]
      exact fold_low_rank (fun d => x (ix3 b s d)) (fun d => W (ix2 q d)) (fun r d => Av (ix2 r d))
        (fun r => Bv (ix2 ⟨q.val - 2048, by have := q.isLt; omega⟩ r)) (β (ix1 q)) (fun d => hx _) (fun d => hW _)
        (fun r d => hAv _) (fun r => hBv _) (hβ _)
    · -- a key column: no correction
      simp only [dif_neg h1, dif_neg h2]

end Cert.KernelIdeal.Folded

end
-- ==== Proof.Finite.lean ====
/-
  Finiteness of the inputs, read back from the printed precondition.

  The precondition computes, for each of the seven float arrays `x`, the conjunction over every
  index of `|x i| < +∞`, and takes the conjunction of the seven results. Over the extended reals
  `|a| = max a (-a)`, and `max a (-a) < ⊤` excludes both `a = ⊤` and `a = ⊥`; so when the
  precondition evaluates to 1, every entry of every array is a real number.
-/
import proofs.«120663_j47656957116918_2_alg».proof.Proof.Gen.Pre_finite_inputs
import Idealize.ShloMosaic.Lib.ReduceAll
import Idealize.ShloMosaic.Lib.ValueIdx
import Idealize.ShloMosaic.PureOps.Ideal.Laws

namespace Cert.Finite

open Idealize.ShloMosaic Cert.Pre_finite_inputs

/-- The scalar shape has exactly one index. -/
instance : Subsingleton S_.Idx := ⟨fun a b => funext fun d => d.elim0⟩

/-- The pattern `0x7F800000` (sign 0, exponent all ones, significand 0) denotes `+∞`. -/
theorem ofBits_inf : Ideal.ofBits .f32 0x7F800000#32 = (⊤ : EReal) := by
  simp [Ideal.ofBits, Ideal.ieee]

/-- An extended real whose absolute value `max a (-a)` is below `⊤` is a real number:
    at `a = ⊤` the maximum is `⊤`, and at `a = ⊥` it is `-⊥ = ⊤`. -/
theorem real_of_abs_lt_top (a : EReal) (h : max a (-a) < ⊤) : ∃ r : ℝ, a = (r : EReal) := by
  induction a using EReal.rec with
  | bot => simp at h
  | top => simp at h
  | coe r => exact ⟨r, rfl⟩

/-- The ordered comparison `a < b` of extended reals, printed as an `i1`, is 1 only when `a < b`. -/
theorem lt_of_cmp_olt {a b : EReal} (h : Ideal.cmp .olt a b = 1#1) : a < b := by
  have hd : BitVec.ofBool (decide (a < b)) = 1#1 := h
  by_contra hn
  rw [decide_eq_false hn] at hd
  exact absurd hd (by decide)

/-- One array: if the conjunction over all indices of `|x i| < +∞` is 1, every entry of `x` is real. -/
theorem all_real {s : Shape} {axes : List (Fin s.rank)} (x : FVec Ideal s .f32)
    (hb : S_.BroadcastsInDim s (![] : Fin 0 → Fin s.rank)) (hred : s.ReducesTo axes S_) (hS : 0 < S_.numel)
    (h : Host.reduce IntOp.andi
          (cmpf .olt (Host.absf x) (broadcastInDim s ![] hb (constant S_ .f32 0x7F800000#32)))
          (constantI S_ 1 1#1) hred hS ValueIdx.ix0 = 1#1) :
    ∀ i, ∃ r : ℝ, x i = (r : EReal) := by
  intro i
  have hi := Host.reduce_andi_all _ _ hred hS _ h i
  have hc : Ideal.cmp .olt (max (x i) (-(x i))) (Ideal.ofBits .f32 0x7F800000#32) = 1#1 := hi
  rw [ofBits_inf] at hc
  exact real_of_abs_lt_top _ (lt_of_cmp_olt hc)

/-- The precondition read back: when it evaluates to 1, every entry of each of the seven arrays is a
    real number. The result is the conjunction, nested to the left, of the seven per-array
    conjunctions; each conjunct being 1 gives the per-array statement. -/
theorem of_pre (x0 : FVec Ideal S4x4096x1024 .f32) (x1 : FVec Ideal S3072x1024 .f32)
    (x2 : FVec Ideal S3072 .f32) (x3 : FVec Ideal S16x1024 .f32) (x4 : FVec Ideal S1024x16 .f32)
    (x5 : FVec Ideal S16x1024 .f32) (x6 : FVec Ideal S1024x16 .f32)
    (h : Cert.Pre_finite_inputs.fn (F := Ideal) x0 x1 x2 x3 x4 x5 x6 = fun _ => 1#1) :
    (∀ i, ∃ r : ℝ, x0 i = (r : EReal)) ∧ (∀ i, ∃ r : ℝ, x1 i = (r : EReal)) ∧
    (∀ i, ∃ r : ℝ, x2 i = (r : EReal)) ∧ (∀ i, ∃ r : ℝ, x3 i = (r : EReal)) ∧
    (∀ i, ∃ r : ℝ, x4 i = (r : EReal)) ∧ (∀ i, ∃ r : ℝ, x5 i = (r : EReal)) ∧
    (∀ i, ∃ r : ℝ, x6 i = (r : EReal)) := by
  have e := congrFun h ValueIdx.ix0
  dsimp only [Cert.Pre_finite_inputs.fn, Cert.Pre_finite_inputs.fn_part1, Idealize.ShloMosaic.andi] at e
  simp only [IntOp.andi_eq_one] at e
  obtain ⟨⟨⟨⟨⟨⟨e0, e1⟩, e2⟩, e3⟩, e4⟩, e5⟩, e6⟩ := e
  exact ⟨all_real x0 _ _ _ e0, all_real x1 _ _ _ e1, all_real x2 _ _ _ e2, all_real x3 _ _ _ e3,
    all_real x4 _ _ _ e4, all_real x5 _ _ _ e5, all_real x6 _ _ _ e6⟩

end Cert.Finite
-- ==== Proof.KernelRun.lean ====
/-
  The kernel's run, read: its result array is the specification of the argument arrays.

  After the grid the host reshapes the `[16384, 3072]` product to `[4, 4096, 3072]`: entry `(b, s, e)` is row `4096·b + s`,
  column `e`. With the staged arrays spelt as the host's terms of the arguments, and every argument entry a real number
  (the precondition), the product of the staged arrays is the specification flattened — the one place where a law of
  arithmetic, folding the low-rank corrections into the weights, is used.
-/
import proofs.«120663_j47656957116918_2_alg».proof.Defs
import proofs.«120663_j47656957116918_2_alg».proof.Proof.Gen.Pre_finite_inputs
import proofs.«120663_j47656957116918_2_alg».proof.Proof.KernelArray
import proofs.«120663_j47656957116918_2_alg».proof.Proof.StagedTerms
import proofs.«120663_j47656957116918_2_alg».proof.Proof.KernelIsSpec
import proofs.«120663_j47656957116918_2_alg».proof.Proof.Finite
import proofs.«120663_j47656957116918_2_alg».proof.Proof.QkvLora

set_option maxRecDepth 16384

noncomputable section

namespace Cert.KernelIdeal.RunValue

open Cert.KernelIdeal Cert.KernelIdeal.Gen Idealize.ShloMosaic Idealize.ShloMosaic.TcCoe Idealize.SL.Sem Idealize.ShloMosaic.ValueIdx
open Idealize.ShloMosaic.StableHlo

variable (m : (ℓ : Loc nD τ sig) → Buf (Elt Ideal) ℓ) (ρ : Dev nD → PrngReg)

/-- The flattened specification reshaped to `[4, 4096, 3072]` is the specification. -/
theorem unflatten (x : FVec Ideal S4x4096x1024 .f32) (W : FVec Ideal S3072x1024 .f32) (β : FVec Ideal S3072 .f32)
    (Aq : FVec Ideal S16x1024 .f32) (Bq : FVec Ideal S1024x16 .f32) (Av : FVec Ideal S16x1024 .f32) (Bv : FVec Ideal S1024x16 .f32) :
    shapeCast S4x4096x3072 (Cert.QkvLora.Gflat x W β Aq Bq Av Bv) shapeCasts_S16384x3072_S4x4096x3072
      = Cert.QkvLora.G x W β Aq Bq Av Bv := by
  funext i
  obtain ⟨b, s, e, rfl⟩ : ∃ (b : Fin 4) (s : Fin 4096) (e : Fin 3072), i = ix3 b s e := ⟨i 0, i 1, i 2, eq_ix3 i⟩
  have hb : b.val < 4 := b.isLt
  have hs : s.val < 4096 := s.isLt
  refine (shapeCast_apply (Cert.QkvLora.Gflat x W β Aq Bq Av Bv) shapeCasts_S16384x3072_S4x4096x3072 (ix3 b s e)
    (ix2 (⟨b.val * 4096 + s.val, by omega⟩ : Fin 16384) e) ?_).trans ?_
  · rw [Shape.rowMajor_val_two, Shape.rowMajor_val_three]
    rfl
  · have eb : (⟨(b.val * 4096 + s.val) / 4096, by omega⟩ : Fin 4) = b := Fin.ext (by show (b.val * 4096 + s.val) / 4096 = b.val; omega)
    have es : (⟨(b.val * 4096 + s.val) % 4096, Nat.mod_lt _ (by decide)⟩ : Fin 4096) = s :=
      Fin.ext (by show (b.val * 4096 + s.val) % 4096 = s.val; omega)
    show Cert.QkvLora.out x W β Aq Bq Av Bv ⟨(b.val * 4096 + s.val) / 4096, _⟩ ⟨(b.val * 4096 + s.val) % 4096, _⟩ e
      = Cert.QkvLora.out x W β Aq Bq Av Bv b s e
    exact congrArg₂ (fun b' s' => Cert.QkvLora.out x W β Aq Bq Av Bv b' s' e) eb es

/-- The host's tail: the result is the result array of the grid, reshaped. -/
theorem tail_eq (c : Dev nD) :
    Pipeline.afterTail₀ cfgs (dats m) 0 (V0 m) [hostOps1] c main_v13
      = shapeCast S4x4096x3072 ((dats m 0 c).arrAt 3 cfg0.N) shapeCasts_S16384x3072_S4x4096x3072 := by
  unfold Pipeline.afterTail₀
  show StableHlo.after hostOps1 _ (Proc.devRef .tc main_v13) = _
  after_results
  rw [Pipeline.withArrays_arr spec0 launch0.win.arr_inj c _ _ 3]
  rfl

/-- THE RESULT, under the precondition: the specification of the argument arrays. -/
theorem result_eq (hpre : Cert.Pre_KernelIdeal m) (c : Dev nD) :
    Pipeline.afterTail₀ cfgs (dats m) 0 (V0 m) [hostOps1] c main_v13
      = Cert.QkvLora.G (m ((c.tc : Thread nD τ).loc main_arg0)) (m ((c.tc : Thread nD τ).loc main_arg1)) (m ((c.tc : Thread nD τ).loc main_arg2))
          (m ((c.tc : Thread nD τ).loc main_arg3)) (m ((c.tc : Thread nD τ).loc main_arg4)) (m ((c.tc : Thread nD τ).loc main_arg5))
          (m ((c.tc : Thread nD τ).loc main_arg6)) := by
  obtain ⟨h0, h1, h2, h3, h4, h5, h6⟩ := Cert.Finite.of_pre _ _ _ _ _ _ _ (hpre c)
  rw [tail_eq, ArrayValue.final, StagedTerms.staged_tokens, StagedTerms.staged_weights, StagedTerms.staged_bias,
    Folded.product_eq_spec _ _ _ _ _ _ _ h0 h1 h2 h3 h4 h5 h6]
  exact unflatten _ _ _ _ _ _ _

/-- THE KERNEL'S RUN, re-posted: under the precondition every weakly fair execution terminates with the result at the
    specification of the arguments and the arguments unchanged. -/
theorem run (hpre : Cert.Pre_KernelIdeal m) :
    θ_run defs (onTc (τ := τ) (main (F := Ideal))) ⟨m, fun _ => 0, ρ⟩ (fun r => ∀ c : Dev nD,
      r.2.mem ((c.tc : Thread nD τ).loc main_v13)
        = Cert.QkvLora.G (m ((c.tc : Thread nD τ).loc main_arg0)) (m ((c.tc : Thread nD τ).loc main_arg1)) (m ((c.tc : Thread nD τ).loc main_arg2))
            (m ((c.tc : Thread nD τ).loc main_arg3)) (m ((c.tc : Thread nD τ).loc main_arg4)) (m ((c.tc : Thread nD τ).loc main_arg5))
            (m ((c.tc : Thread nD τ).loc main_arg6))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun _ h c =>
    ⟨((h c).2 main_v13 (Pipeline.mem_restRefs_of main_v13 (by decide) (by decide))).trans (result_eq m hpre c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c),
      ((h c).2 main_arg4 (Pipeline.mem_restRefs_of main_arg4 (by decide) (by decide))).trans (W_main_arg4 m (dats m) c),
      ((h c).2 main_arg5 (Pipeline.mem_restRefs_of main_arg5 (by decide) (by decide))).trans (W_main_arg5 m (dats m) c),
      ((h c).2 main_arg6 (Pipeline.mem_restRefs_of main_arg6 (by decide) (by decide))).trans (W_main_arg6 m (dats m) c)⟩)
    (run_main m ρ)

end Cert.KernelIdeal.RunValue

end
-- ==== Proof.lean ====
/-
  A fused query/key/value projection with two rank-16 corrections, computed two ways, is one function of its arguments.

  For a token row `x[b,s,·]` (width 1024) and an output column `e < 3072`:
    result[b,s,e] = (Σ_d x[b,s,d] · W[e,d]) + β[e]
                    + Σ_r (Σ_d x[b,s,d] · Aq[r,d]) · Bq[e,r]            on the query columns   e < 1024,
                    + Σ_r (Σ_d x[b,s,d] · Av[r,d]) · Bv[e−2048,r]       on the value columns   2048 ≤ e,
  and nothing more on the key columns in between.

  The reference computes exactly this: one projection with bias, two chains of two small products, and two additions into
  column slices of the result. The kernel's program first folds each correction into the weight matrix on the host —
  `W'[e,d] = W[e,d] + Σ_r B[e,r] · A[r,d]`, added into column slices of the transposed weights —, flattens the tokens to
  16384 rows, and then runs a grid of 32 points, each multiplying 512 token rows by the whole folded matrix and adding the
  bias row; the result is reshaped back. On extended reals a change of float format is the identity and the block
  products are exact sums, so the two agree by distributivity and by exchanging the sums over `d` and `r`: laws of real
  arithmetic, for which the precondition (every input entry finite) is needed and used.

  The three frame claims are the generated frame runs (the reference's is its generated run with the result dropped);
  the idealization rewrote no operation, so `preserves` has nothing to state.
-/
import proofs.«120663_j47656957116918_2_alg».proof.Defs
import proofs.«120663_j47656957116918_2_alg».proof.Proof.Gen.Kernel
import proofs.«120663_j47656957116918_2_alg».proof.Proof.Gen.Kernel.Skeleton
import proofs.«120663_j47656957116918_2_alg».proof.Proof.Gen.Kernel.Launch
import proofs.«120663_j47656957116918_2_alg».proof.Proof.Gen.Kernel.Points
import proofs.«120663_j47656957116918_2_alg».proof.Proof.Gen.Kernel.Frame
import proofs.«120663_j47656957116918_2_alg».proof.Proof.Gen.KernelIdeal
import proofs.«120663_j47656957116918_2_alg».proof.Proof.Gen.KernelIdeal.Skeleton
import proofs.«120663_j47656957116918_2_alg».proof.Proof.Gen.KernelIdeal.Launch
import proofs.«120663_j47656957116918_2_alg».proof.Proof.Gen.KernelIdeal.Points
import proofs.«120663_j47656957116918_2_alg».proof.Proof.Gen.KernelIdeal.Frame
import proofs.«120663_j47656957116918_2_alg».proof.Proof.Gen.ReferenceIdeal
import proofs.«120663_j47656957116918_2_alg».proof.Proof.Gen.ReferenceIdeal.Run
import proofs.«120663_j47656957116918_2_alg».proof.Proof.Gen.ReferenceIdeal.Read
import proofs.«120663_j47656957116918_2_alg».proof.Proof.Gen.Pre_finite_inputs
import proofs.«120663_j47656957116918_2_alg».proof.Proof.RefIsSpec
import proofs.«120663_j47656957116918_2_alg».proof.Proof.KernelRun
import Idealize.ShloMosaic.Adequacy
import Idealize.ShloMosaic.Init

noncomputable section

namespace Cert.Proof

open Idealize.ShloMosaic Idealize.ShloMosaic.TcCoe Idealize.SL.Sem

/-- The kernel's program as printed runs and leaves its arguments as they were. -/
theorem frame_kernel : Cert.frame_Kernel := fun m ρ _ => Cert.Kernel.Gen.frame m ρ

/-- So does its idealization. -/
theorem frame_kernel_ideal : Cert.frame_KernelIdeal := fun m ρ _ => Cert.KernelIdeal.Gen.frame m ρ

/-- So does the reference: its run, with the result dropped. -/
theorem frame_reference_ideal : Cert.frame_ReferenceIdeal := fun m ρ _ =>
  (θ_run Cert.ReferenceIdeal.defs _ _).mono (fun _ h c => (h c).2) (Cert.ReferenceIdeal.Value.run (F := Ideal) m ρ)

/-- From memories that agree on the arguments, both programs end with the specification of those arguments in their
    result: the kernel's by its run read through the grid's blocks and the folding law, the reference's term for term. -/
theorem algebraic : Cert.algebraic_KernelIdeal_ReferenceIdeal := by
  intro m ρ m' ρ' hpre hagree
  refine ⟨_, Cert.KernelIdeal.RunValue.run m ρ hpre, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v11_eq, Cert.ReferenceIdeal.RefValue.ref_eq,
    (hagree c).1, (hagree c).2.1, (hagree c).2.2.1, (hagree c).2.2.2.1, (hagree c).2.2.2.2.1, (hagree c).2.2.2.2.2.1,
    (hagree c).2.2.2.2.2.2]

theorem claim : Cert.Claim := ⟨Cert.Kernel.Gen.facts, Cert.KernelIdeal.Gen.facts, Cert.ReferenceIdeal.Gen.facts, Cert.Pre_finite_inputs.Gen.facts,
  frame_kernel, frame_kernel_ideal, frame_reference_ideal, trivial, algebraic⟩

end Cert.Proof

end
